-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S2x128x128 : Shape := ⟨3, ![2, 128, 128]⟩
abbrev S256x1 : Shape := ⟨2, ![256, 1]⟩
abbrev S1 : Shape := ⟨1, ![1]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256x1 .f32) (main_arg7 : FVec F S1 .f32) (main_arg8 : FVec F S128x64 .f32) (main_arg9 : FVec F S64 .f32) (main_arg10 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S256x1 .f32 := Host.absf main_arg6
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S2x128x128 .f32) (main_arg6 : FVec F S256x1 .f32) (main_arg7 : FVec F S1 .f32) (main_arg8 : FVec F S128x64 .f32) (main_arg9 : FVec F S64 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S2x128x128 : Shape := ⟨3, ![2, 128, 128]⟩
abbrev S256x1 : Shape := ⟨2, ![256, 1]⟩
abbrev S1 : Shape := ⟨1, ![1]⟩
abbrev S128x64 : Shape := ⟨2, ![128, 64]⟩
abbrev S64 : Shape := ⟨1, ![64]⟩
abbrev S128x1 : Shape := ⟨2, ![128, 1]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S1x1 : Shape := ⟨2, ![1, 1]⟩
abbrev S1x128x128 : Shape := ⟨3, ![1, 128, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 75
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S2x128x128, .f32⟩
  | .hbm, ⟨6, _⟩ => ⟨S256x1, .f32⟩
  | .hbm, ⟨7, _⟩ => ⟨S1, .f32⟩
  | .hbm, ⟨8, _⟩ => ⟨S128x64, .f32⟩
  | .hbm, ⟨9, _⟩ => ⟨S64, .f32⟩
  | .hbm, ⟨10, _⟩ => ⟨S1, .f32⟩
  | .hbm, ⟨11, _⟩ => ⟨S128x1, .f32⟩
  | .hbm, ⟨12, _⟩ => ⟨S128, .f32⟩
  | .hbm, ⟨13, _⟩ => ⟨S128x1, .f32⟩
  | .hbm, ⟨14, _⟩ => ⟨S128, .f32⟩
  | .hbm, ⟨15, _⟩ => ⟨S100000x128, .bf16⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .bf16⟩
  | .hbm, ⟨26, _⟩ => ⟨S1600000x128, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S100000x128, .bf16⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128x128, .f32⟩
  | .hbm, ⟨53, _⟩ => ⟨S128x128, .f32⟩
  | .hbm, ⟨54, _⟩ => ⟨S100000x128, .bf16⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128, .f32⟩
  | .local _ .vmem, ⟨5, _⟩ => ⟨S1, .f32⟩
  | .local _ .vmem, ⟨6, _⟩ => ⟨S1, .f32⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S128, .f32⟩
  | .local _ .vmem, ⟨17, _⟩ => ⟨S128, .f32⟩
  | .local _ .vmem, ⟨18, _⟩ => ⟨S1, .f32⟩
  | .local _ .vmem, ⟨19, _⟩ => ⟨S1, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1, .f32⟩
  | .local _ .vmem, ⟨26, _⟩ => ⟨S128x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S256x1_S128x1_0_0 : S256x1.Slices ![0, 0] S128x1
  shapeCasts_S128x1_S128 : S128x1.ShapeCasts S128
  slices_S256x1_S128x1_128_0 : S256x1.Slices ![128, 0] S128x1
  bitsLt_bf16_f32 : FTy.bits .bf16 < FTy.bits .f32
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  broadcasts_S5000x1_S5000x128 : S5000x1.Broadcasts S5000x128
  broadcasts_S1x1_S5000x128 : S1x1.Broadcasts S5000x128
  packedbf16_S5000x128_S5000x128_0_0 : (Rect.unit (s := S5000x128) ![0, 0] S5000x128.size inb_S5000x128_S5000x128_0_0).PackedRows (EltTy.packing .bf16)
  slices_S2x128x128_S1x128x128_0_0_0 : S2x128x128.Slices ![0, 0, 0] S1x128x128
  shapeCasts_S1x128x128_S128x128 : S1x128x128.ShapeCasts S128x128
  shapeCasts_S128x128_S128x128 : S128x128.ShapeCasts S128x128
  slices_S2x128x128_S1x128x128_1_0_0 : S2x128x128.Slices ![1, 0, 0] S1x128x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .bf16 = 32 ∨ (Rect.block (s := S100000x128) S5000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .bf16 = 32 ∨ (Rect.block (s := S100000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S2x128x128 : Shape := ⟨3, ![2, 128, 128]⟩
abbrev S256x1 : Shape := ⟨2, ![256, 1]⟩
abbrev S1 : Shape := ⟨1, ![1]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S100000x1 : Shape := ⟨2, ![100000, 1]⟩
abbrev S1x1 : Shape := ⟨2, ![1, 1]⟩
abbrev S1x128x128 : Shape := ⟨3, ![1, 128, 128]⟩
abbrev S100000x64 : Shape := ⟨2, ![100000, 64]⟩
abbrev S1x64 : Shape := ⟨2, ![1, 64]⟩
abbrev S100000 : Shape := ⟨1, ![100000]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x128, .f32⟩
  | 5 => ⟨S2x128x128, .f32⟩
  | 6 => ⟨S256x1, .f32⟩
  | 7 => ⟨S1, .f32⟩
  | 8 => ⟨S128x64, .f32⟩
  | 9 => ⟨S64, .f32⟩
  | 10 => ⟨S1, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000x128, .f32⟩
  | 28 => ⟨S100000x256, .f32⟩
  | 29 => ⟨S100000x1, .f32⟩
  | 30 => ⟨S1x1, .f32⟩
  | 31 => ⟨S100000x1, .f32⟩
  | 32 => ⟨S100000x1, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S_, .f32⟩
  | 39 => ⟨S100000x1, .f32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .i1⟩
  | 52 => ⟨S1x1, .f32⟩
  | 53 => ⟨S100000x128, .f32⟩
  | 54 => ⟨S100000x128, .f32⟩
  | 55 => ⟨S100000x128, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128x128, .f32⟩
  | 73 => ⟨S128x128, .f32⟩
  | 74 => ⟨S100000x128, .f32⟩
  | 75 => ⟨S100000x256, .f32⟩
  | 76 => ⟨S100000x1, .f32⟩
  | 77 => ⟨S1x1, .f32⟩
  | 78 => ⟨S100000x1, .f32⟩
  | 79 => ⟨S100000x1, .f32⟩
  | 80 => ⟨S100000x1, .f32⟩
  | 81 => ⟨S100000x1, .f32⟩
  | 82 => ⟨S_, .f32⟩
  | 83 => ⟨S100000x1, .f32⟩
  | 84 => ⟨S100000x1, .f32⟩
  | 85 => ⟨S_, .f32⟩
  | 86 => ⟨S100000x1, .f32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .i1⟩
  | 99 => ⟨S1x1, .f32⟩
  | 100 => ⟨S100000x128, .f32⟩
  | 101 => ⟨S100000x128, .f32⟩
  | 102 => ⟨S100000x128, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S1x128x128, .f32⟩
  | 120 => ⟨S128x128, .f32⟩
  | 121 => ⟨S100000x128, .f32⟩
  | 122 => ⟨S_, .f32⟩
  | 123 => ⟨S100000x128, .f32⟩
  | 124 => ⟨S100000x128, .i1⟩
  | 125 => ⟨S1x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x64, .f32⟩
  | 12 => ⟨S100000x64, .f32⟩
  | 13 => ⟨S100000x64, .f32⟩
  | 14 => ⟨S_, .f32⟩
  | 15 => ⟨S100000, .f32⟩
  | 16 => ⟨S100000x1, .f32⟩
  | 17 => ⟨S100000x1, .f32⟩
  | 18 => ⟨S100000x64, .f32⟩
  | 19 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_c_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call3_cst : Ref sig .tc := ⟨.hbm, 133, rfl⟩
abbrev main_call3_v0 : Ref sig .tc := ⟨.hbm, 134, rfl⟩
abbrev main_call3_cst_0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_cst_1 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x1_S100000x128_0_1 : S1x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x1_S100000x1_1_0_0_1_n_n_wf : DotDims.WF S100000x256 S256x1 S100000x1 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«104476_j75213467287803_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«104476_j75213467287803_2_alg».proof.Proof.LibPlainDot
import proofs.«104476_j75213467287803_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibLogSoftmax.lean ====
/-
  The row-wise log-softmax `z − max z − log ∑ exp (z − max z)` of an `[M, C]` array, in its two spellings, read as ONE
  index-by-index function over the extended reals.

  * In a kernel: a lane `multi_reduction <maximumf>` from −∞, the result cast to a column and broadcast back, a
    subtraction, `exp`, a lane `multi_reduction <add>`, `log` of the column, a second subtraction.
  * On the host: a `reduce` with a `maximum` body from −∞ (and one more `maximum` with a splat −∞, which changes
    nothing), the column forms by `broadcast_in_dim`, a `reduce` with an `add` body from zero.

  Both read, at `(p, q)`, `(z (p, q) − μ) − log ∑ⱼ exp (z (p, j) − μ)` with `μ` the fold of `max` from −∞ over row `p`.
  The only laws used: `max (−∞) y = y` and `0 + s = s`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«104476_j75213467287803_2_alg».proof.Proof.LibKeepdims

noncomputable section

namespace Cert.Lib

open Idealize.ShloMosaic Idealize.ShloMosaic.ValueIdx

variable {M C : Nat}

/-- The maximum of row `r`, taken from −∞. -/
def rowMax (z : (⟨2, ![M, C]⟩ : Shape).Idx → EReal) (r : Fin M) : EReal :=
  (Finset.univ : Finset (Fin C)).fold max (Ideal.ofBits .f32 0xFF800000#32) (fun j => z (ix2 r j))

/-- Each entry less its row's maximum. -/
def shifted (z : (⟨2, ![M, C]⟩ : Shape).Idx → EReal) : (⟨2, ![M, C]⟩ : Shape).Idx → EReal :=
  fun i => z i - rowMax z (i 0)

/-- The row-wise log-softmax: the shifted entry less the logarithm of the row's sum of exponentials. -/
def logSoftmax (z : (⟨2, ![M, C]⟩ : Shape).Idx → EReal) : (⟨2, ![M, C]⟩ : Shape).Idx → EReal :=
  fun i => shifted z i - Ideal.log (∑ j : Fin C, Ideal.exp (shifted z (ix2 (i 0) j)))

/-- Row `p` with lane `k` put back is the index `(p, k)`. -/
theorem lift_lane (h : (⟨2, ![M, C]⟩ : Shape).Reduces [(1 : Fin 2)] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

theorem max_negInf (y : EReal) : max (Ideal.ofBits .f32 0xFF800000#32) y = y := by
  simp [Ideal.ofBits, Ideal.ieee]

/-- The kernel's spelling. -/
theorem kernel_logSoftmax (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    subf (subf z (broadcastTo ⟨2, ![M, C]⟩ (shapeCast ⟨2, ![M, 1]⟩
            (multiReduction .maximumf [(1 : Fin 2)] ⟨1, ![M]⟩ z 0xFF800000#32 hr hφ hmax) hc) hb))
        (broadcastTo ⟨2, ![M, C]⟩ (log (shapeCast ⟨2, ![M, 1]⟩
            (multiReduction .add [(1 : Fin 2)] ⟨1, ![M]⟩
              (exp (subf z (broadcastTo ⟨2, ![M, C]⟩ (shapeCast ⟨2, ![M, 1]⟩
                (multiReduction .maximumf [(1 : Fin 2)] ⟨1, ![M]⟩ z 0xFF800000#32 hr hφ hmax) hc) hb)))
              0x00000000#32 hr hφ hadd) hc)) hb)
      = logSoftmax z := by
  have hmx : ∀ (p : Fin M) (q : Fin C), broadcastTo ⟨2, ![M, C]⟩ (shapeCast ⟨2, ![M, 1]⟩
      (multiReduction .maximumf [(1 : Fin 2)] ⟨1, ![M]⟩ z 0xFF800000#32 hr hφ hmax) hc) hb (ix2 p q) = rowMax z p := by
    intro p q
    rw [Cert.LibKeepdims.broadcastTo_a1_ab_apply _ hb p q, Cert.LibKeepdims.shapeCast_a_a1_apply _ hc p (0 : Fin 1),
      Ideal.multiReduction_maximumf_single z _ hr hφ hmax (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastTo ⟨2, ![M, C]⟩ (shapeCast ⟨2, ![M, 1]⟩
      (multiReduction .maximumf [(1 : Fin 2)] ⟨1, ![M]⟩ z 0xFF800000#32 hr hφ hmax) hc) hb) (ix2 p q) = shifted z (ix2 p q) := by
    intro p q
    show z (ix2 p q) - _ = z (ix2 p q) - rowMax z p
    rw [hmx p q]
  funext i
  obtain ⟨p, q, rfl⟩ : ∃ (p : Fin M) (q : Fin C), i = ix2 p q := ⟨i 0, i 1, eq_ix2 i⟩
  show subf z _ (ix2 p q) - broadcastTo ⟨2, ![M, C]⟩ _ hb (ix2 p q)
    = shifted z (ix2 p q) - Ideal.log (∑ j : Fin C, Ideal.exp (shifted z (ix2 p j)))
  rw [hsh p q, Cert.LibKeepdims.broadcastTo_a1_ab_apply _ hb p q]
  show shifted z (ix2 p q) - Ideal.log (shapeCast ⟨2, ![M, 1]⟩ _ hc (ix2 p (0 : Fin 1))) = _
  rw [Cert.LibKeepdims.shapeCast_a_a1_apply _ hc p (0 : Fin 1), Ideal.multiReduction_add_single _ _ hr hφ hadd (ix1 p)]
  refine congrArg (fun s => shifted z (ix2 p q) - Ideal.log s) (Finset.sum_congr rfl fun k _ => ?_)
  rw [lift_lane hr p k]
  exact congrArg Ideal.exp (hsh p k)

/-- The host's spelling. -/
theorem host_logSoftmax (z : FVec Ideal ⟨2, ![M, C]⟩ .f32)
    (h' : (⟨2, ![M, C]⟩ : Shape).ReducesTo [(1 : Fin 2)] (⟨1, ![M]⟩ : Shape))
    (hr : (⟨2, ![M, C]⟩ : Shape).Reduces [(1 : Fin 2)] (⟨1, ![M]⟩ : Shape)) (hu : 0 < (⟨0, ![]⟩ : Shape).numel)
    (b0 : (⟨0, ![]⟩ : Shape).BroadcastsInDim ⟨1, ![M]⟩ ![])
    (b1 : (⟨1, ![M]⟩ : Shape).BroadcastsInDim ⟨2, ![M, 1]⟩ ![0])
    (b2 : (⟨2, ![M, 1]⟩ : Shape).BroadcastsInDim ⟨2, ![M, C]⟩ ![0, 1]) :
    subf (subf z (broadcastInDim ⟨2, ![M, C]⟩ ![0, 1] b2 (broadcastInDim ⟨2, ![M, 1]⟩ ![0] b1
            (maximumf (broadcastInDim ⟨1, ![M]⟩ ![] b0 (constant (F := Ideal) ⟨0, ![]⟩ .f32 0xFF800000#32))
              (Host.reduce FloatOps.maximumf z (constant (F := Ideal) ⟨0, ![]⟩ .f32 0xFF800000#32) h' hu)))))
        (broadcastInDim ⟨2, ![M, C]⟩ ![0, 1] b2 (Host.log (broadcastInDim ⟨2, ![M, 1]⟩ ![0] b1
            (Host.reduceAdd (Host.exp (subf z (broadcastInDim ⟨2, ![M, C]⟩ ![0, 1] b2 (broadcastInDim ⟨2, ![M, 1]⟩ ![0] b1
              (maximumf (broadcastInDim ⟨1, ![M]⟩ ![] b0 (constant (F := Ideal) ⟨0, ![]⟩ .f32 0xFF800000#32))
                (Host.reduce FloatOps.maximumf z (constant (F := Ideal) ⟨0, ![]⟩ .f32 0xFF800000#32) h' hu))))))
              (constant (F := Ideal) ⟨0, ![]⟩ .f32 0x00000000#32) h' hu))))
      = logSoftmax z := by
  -- a column `[M, 1]` made from a vector `[M]` and broadcast over the lanes reads the vector at the row
  have hcol : ∀ (v : (⟨1, ![M]⟩ : Shape).Idx → EReal) (p : Fin M) (q : Fin C),
      broadcastInDim ⟨2, ![M, C]⟩ ![0, 1] b2 (broadcastInDim ⟨2, ![M, 1]⟩ ![0] b1 v) (ix2 p q) = v (ix1 p) := by
    intro v p q
    rw [broadcastInDim_apply ![0, 1] b2 _ (ix2 p q) (ix2 p (0 : Fin 1)) (fun a => by
      match a with
      | ⟨0, _⟩ =>
        show p.val = if M = 1 then 0 else p.val
        split
        · have := p.isLt; omega
        · rfl
      | ⟨1, _⟩ => rfl)]
    rw [broadcastInDim_apply ![0] b1 v (ix2 p (0 : Fin 1)) (ix1 p) (fun a => by
      match a with
      | ⟨0, _⟩ =>
        show p.val = if M = 1 then 0 else p.val
        split
        · have := p.isLt; omega
        · rfl)]
  have hmx : ∀ (p : Fin M), maximumf (broadcastInDim ⟨1, ![M]⟩ ![] b0 (constant (F := Ideal) ⟨0, ![]⟩ .f32 0xFF800000#32))
      (Host.reduce FloatOps.maximumf z (constant (F := Ideal) ⟨0, ![]⟩ .f32 0xFF800000#32) h' hu) (ix1 p) = rowMax z p := by
    intro p
    show max (broadcastInDim ⟨1, ![M]⟩ ![] b0 (constant (F := Ideal) ⟨0, ![]⟩ .f32 0xFF800000#32) (ix1 p))
      (Host.reduce FloatOps.maximumf z (constant (F := Ideal) ⟨0, ![]⟩ .f32 0xFF800000#32) h' hu (ix1 p)) = _
    rw [broadcastInDim_apply ![] b0 _ (ix1 p) ix0 (fun a => a.elim0)]
    show max (Ideal.ofBits .f32 0xFF800000#32) _ = _
    rw [max_negInf, Host.reduce_eq_fold_single FloatOps.maximumf z _ h' hr hu (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastInDim ⟨2, ![M, C]⟩ ![0, 1] b2 (broadcastInDim ⟨2, ![M, 1]⟩ ![0] b1
      (maximumf (broadcastInDim ⟨1, ![M]⟩ ![] b0 (constant (F := Ideal) ⟨0, ![]⟩ .f32 0xFF800000#32))
        (Host.reduce FloatOps.maximumf z (constant (F := Ideal) ⟨0, ![]⟩ .f32 0xFF800000#32) h' hu)))) (ix2 p q)
      = shifted z (ix2 p q) := by
    intro p q
    show z (ix2 p q) - _ = z (ix2 p q) - rowMax z p
    rw [hcol _ p q, hmx p]
  funext i
  obtain ⟨p, q, rfl⟩ : ∃ (p : Fin M) (q : Fin C), i = ix2 p q := ⟨i 0, i 1, eq_ix2 i⟩
  show subf z _ (ix2 p q) - _ = shifted z (ix2 p q) - Ideal.log (∑ j : Fin C, Ideal.exp (shifted z (ix2 p j)))
  rw [hsh p q]
  have hlog : ∀ (v : (⟨1, ![M]⟩ : Shape).Idx → EReal),
      broadcastInDim ⟨2, ![M, C]⟩ ![0, 1] b2 (Host.log (F := Ideal) (φ := .f32) (broadcastInDim ⟨2, ![M, 1]⟩ ![0] b1 v)) (ix2 p q)
        = Ideal.log (v (ix1 p)) := by
    intro v
    have e := hcol (fun j => Ideal.log (v j)) p q
    exact e
  rw [hlog]
  show shifted z (ix2 p q) - Ideal.log (Ideal.hostReduceAdd h' _ (Ideal.ofBits .f32 0x00000000#32) (ix1 p)) = _
  rw [Ideal.hostReduceAdd_single h' hr _ _ (ix1 p), Ideal.ofBits_zero_f32, zero_add]
  refine congrArg (fun s => shifted z (ix2 p q) - Ideal.log s) (Finset.sum_congr rfl fun k _ => ?_)
  rw [lift_lane hr p k]
  exact congrArg Ideal.exp (hsh p k)

end Cert.Lib

end
-- ==== Proof.LibRowLocal.lean ====
/-
  Dense layers act row by row.

  Say that an array `a'` of `B` rows holds rows of an array `a` of `M` rows along a map `r : Fin B → Fin M` when row `p` of
  `a'` is row `r p` of `a`, entry by entry.  A projection `x · w`, the addition of a bias row, and the clamp at zero each
  compute row `p` of their result from row `p` of their operand alone, so each carries this relation from its operand to
  its result.  This is what lets a computation done block of rows by block of rows be compared with the same computation
  done on the whole array: the block's rows are rows of the whole along `p ↦ offset + p`.
-/
import proofs.«104476_j75213467287803_2_alg».proof.Proof.LibDenseLayers

noncomputable section

namespace Cert.Layers

open Idealize.ShloMosaic Idealize.ShloMosaic.ValueIdx

variable {B M K N : Nat}

/-- Row `p` of `a'` is row `r p` of `a`. -/
def RowsOf (r : Fin B → Fin M) (a' : (⟨2, ![B, K]⟩ : Shape).Idx → EReal) (a : (⟨2, ![M, K]⟩ : Shape).Idx → EReal) : Prop :=
  ∀ (p : Fin B) (k : Fin K), a' (ix2 p k) = a (ix2 (r p) k)

/-- The projection of rows is the rows of the projection: entry `(p, q)` sums over row `p` only. -/
theorem RowsOf.project {r : Fin B → Fin M} {a' : (⟨2, ![B, K]⟩ : Shape).Idx → EReal} {a : (⟨2, ![M, K]⟩ : Shape).Idx → EReal}
    (h : RowsOf r a' a) (w : (⟨2, ![K, N]⟩ : Shape).Idx → EReal) : RowsOf r (project a' w) (project a w) := by
  intro p q
  rw [project_apply, project_apply]
  exact Finset.sum_congr rfl fun k _ => by rw [h p k]

/-- Adding one bias row to every row commutes with taking rows. -/
theorem RowsOf.addRow {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRow a' b) (addRow a b) := by
  intro p q
  show a' (ix2 p q) + b (ix2 (0 : Fin 1) q) = a (ix2 (r p) q) + b (ix2 (0 : Fin 1) q)
  rw [h p q]

/-- So does adding the bias row and clamping at zero. -/
theorem RowsOf.addRowClamp {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRowClamp a' b) (addRowClamp a b) := by
  intro p q
  show max (a' (ix2 p q) + b (ix2 (0 : Fin 1) q)) 0 = max (a (ix2 (r p) q) + b (ix2 (0 : Fin 1) q)) 0
  rw [h p q]

end Cert.Layers

end
-- ==== Proof.LibHeadSplit.lean ====
/-
  A matrix product whose left operand is two matrices laid side by side.

  If the left operand of `[M, a+b] × [a+b, N]` is the concatenation along the column axis of `x : [M, a]` and
  `y : [M, b]`, then entry `(p, q)` of the product is
  `∑ k < a+b, [x | y] (p, k) · w (k, q) = ∑ k < a, x (p, k) · w (k, q) + ∑ k < b, y (p, k) · w (a + k, q)`:
  the contraction sum is split at `a`, and every term stays what it was.  This is a regrouping of a finite sum in a
  commutative additive monoid, so it holds over the extended reals without any real-valuedness hypothesis.

  The host form: the right operand is a transposed `[N, a+b]` matrix `lp`; its top `a` rows are the transposed block
  of `lp`'s first `a` columns, and its bottom `b` rows the transposed block of the remaining columns.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«104476_j75213467287803_2_alg».proof.Proof.LibDenseLayers

noncomputable section

namespace Cert.Layers

open Idealize.ShloMosaic Idealize.ShloMosaic.ValueIdx

variable {α : Type}

/-! ## A sum over `a + b` terms is the sum over the first `a` plus the sum over the last `b` -/

/-- A sum indexed by `Fin c`, `c = a + b`, split at `a`. -/
theorem sum_fin_split {a b c : Nat} (hc : c = a + b) (f : Fin c → EReal) :
    ∑ k : Fin c, f k
      = ∑ k : Fin a, f ⟨k.val, by have := k.isLt; omega⟩ + ∑ k : Fin b, f ⟨a + k.val, by have := k.isLt; omega⟩ := by
  subst hc
  rw [Fin.sum_univ_add]
  rfl

/-! ## Two arrays laid side by side, read at an index -/

/-- Two row-aligned matrices laid side by side, read in a column of the first. -/
theorem concat2_axis1_left {M a b c : Nat} (x : (⟨2, ![M, a]⟩ : Shape).Idx → α) (y : (⟨2, ![M, b]⟩ : Shape).Idx → α)
    (h : Shape.Concatenates [(⟨2, ![M, a]⟩ : Shape), ⟨2, ![M, b]⟩] ⟨2, ![M, c]⟩ 1)
    (p : Fin M) (k : Fin c) (k' : Fin a) (hk : k'.val = k.val) :
    concatenate ⟨2, ![M, c]⟩ 1 [⟨⟨2, ![M, a]⟩, x⟩, ⟨⟨2, ![M, b]⟩, y⟩] h (ix2 p k) = x (ix2 p k') :=
  concatenate_pair_apply_left 1 x y h (ix2 p k) rfl (ix2 p k') (fun ax => by
    match ax with
    | ⟨0, _⟩ => rfl
    | ⟨1, _⟩ => exact hk)

/-- Two row-aligned matrices laid side by side, read in a column of the second. -/
theorem concat2_axis1_right {M a b c : Nat} (x : (⟨2, ![M, a]⟩ : Shape).Idx → α) (y : (⟨2, ![M, b]⟩ : Shape).Idx → α)
    (h : Shape.Concatenates [(⟨2, ![M, a]⟩ : Shape), ⟨2, ![M, b]⟩] ⟨2, ![M, c]⟩ 1)
    (p : Fin M) (k : Fin c) (k' : Fin b) (hk : k'.val + a = k.val) :
    concatenate ⟨2, ![M, c]⟩ 1 [⟨⟨2, ![M, a]⟩, x⟩, ⟨⟨2, ![M, b]⟩, y⟩] h (ix2 p k) = y (ix2 p k') :=
  concatenate_pair_apply_right 1 x y h (ix2 p k) rfl rfl (ix2 p k') (fun ax hne => by
    match ax with
    | ⟨0, _⟩ => rfl
    | ⟨1, _⟩ => exact absurd rfl hne) hk

/-! ## The product of a side-by-side pair with a matrix -/

/-- The rows `0 … a-1` of a matrix with `c = a + b` rows. -/
def topRows {a b c N : Nat} (hc : c = a + b) (w : (⟨2, ![c, N]⟩ : Shape).Idx → EReal) : (⟨2, ![a, N]⟩ : Shape).Idx → EReal :=
  fun i => w (ix2 (n1 := N) ⟨(i 0).val, by have h0 : (i 0).val < a := (i 0).isLt; omega⟩ (i 1))

/-- The rows `a … a+b-1` of a matrix with `c = a + b` rows. -/
def bottomRows {a b c N : Nat} (hc : c = a + b) (w : (⟨2, ![c, N]⟩ : Shape).Idx → EReal) : (⟨2, ![b, N]⟩ : Shape).Idx → EReal :=
  fun i => w (ix2 (n1 := N) ⟨a + (i 0).val, by have h0 : (i 0).val < b := (i 0).isLt; omega⟩ (i 1))

/-- `[x | y] · w = x · (top rows of w) + y · (bottom rows of w)`, entry by entry: the contraction sum over `a + b`
    terms is split at `a`; no term is changed, so no law of arithmetic beyond the regrouping of a finite sum is used. -/
theorem project_concat {M a b c N : Nat} (hc : c = a + b)
    (x : (⟨2, ![M, a]⟩ : Shape).Idx → EReal) (y : (⟨2, ![M, b]⟩ : Shape).Idx → EReal)
    (w : (⟨2, ![c, N]⟩ : Shape).Idx → EReal)
    (h : Shape.Concatenates [(⟨2, ![M, a]⟩ : Shape), ⟨2, ![M, b]⟩] ⟨2, ![M, c]⟩ 1) :
    project (concatenate ⟨2, ![M, c]⟩ 1 [⟨⟨2, ![M, a]⟩, x⟩, ⟨⟨2, ![M, b]⟩, y⟩] h) w
      = fun i => project x (topRows hc w) i + project y (bottomRows hc w) i := by
  funext i
  obtain ⟨p, q, rfl⟩ : ∃ (p : Fin M) (q : Fin N), i = ix2 p q := ⟨i 0, i 1, eq_ix2 i⟩
  show project _ w (ix2 p q) = project x _ (ix2 p q) + project y _ (ix2 p q)
  rw [project_apply, project_apply, project_apply, sum_fin_split hc]
  congr 1
  · refine Finset.sum_congr rfl fun k _ => ?_
    rw [concat2_axis1_left x y h p ⟨k.val, by have := k.isLt; omega⟩ k rfl]
    rfl
  · refine Finset.sum_congr rfl fun k _ => ?_
    rw [concat2_axis1_right x y h p ⟨a + k.val, by have := k.isLt; omega⟩ k (Nat.add_comm _ _)]
    rfl

/-! ## The host form: one product with the transposed matrix against two products with its transposed column blocks -/

/-- The transposed block of columns `0 … a-1` of `lp` is the top rows of `lp` transposed. -/
theorem transpose_slice_left {a b c N : Nat} (hc : c = a + b) (lp : (⟨2, ![N, c]⟩ : Shape).Idx → EReal)
    (htr : (⟨2, ![N, c]⟩ : Shape).Transposes [1, 0] ⟨2, ![c, N]⟩)
    (hs : (⟨2, ![N, c]⟩ : Shape).Slices ![0, 0] ⟨2, ![N, a]⟩)
    (ht : (⟨2, ![N, a]⟩ : Shape).Transposes [1, 0] ⟨2, ![a, N]⟩) :
    transpose ⟨2, ![a, N]⟩ [1, 0] (extractStridedSlice ⟨2, ![N, a]⟩ ![0, 0] lp hs) ht
      = topRows hc (transpose ⟨2, ![c, N]⟩ [1, 0] lp htr) := by
  funext i
  obtain ⟨k, q, rfl⟩ : ∃ (k : Fin a) (q : Fin N), i = ix2 k q := ⟨i 0, i 1, eq_ix2 i⟩
  show _ = transpose ⟨2, ![c, N]⟩ [1, 0] lp htr (ix2 ⟨k.val, _⟩ q)
  rw [transpose_ix2_apply, transpose_ix2_apply, slice2_axis1_apply 0 lp hs q k ⟨k.val, by have := k.isLt; omega⟩ (Nat.zero_add _).symm]

/-- The transposed block of columns `a … a+b-1` of `lp` is the bottom rows of `lp` transposed. -/
theorem transpose_slice_right {a b c N : Nat} (hc : c = a + b) (lp : (⟨2, ![N, c]⟩ : Shape).Idx → EReal)
    (htr : (⟨2, ![N, c]⟩ : Shape).Transposes [1, 0] ⟨2, ![c, N]⟩)
    (hs : (⟨2, ![N, c]⟩ : Shape).Slices ![0, a] ⟨2, ![N, b]⟩)
    (ht : (⟨2, ![N, b]⟩ : Shape).Transposes [1, 0] ⟨2, ![b, N]⟩) :
    transpose ⟨2, ![b, N]⟩ [1, 0] (extractStridedSlice ⟨2, ![N, b]⟩ ![0, a] lp hs) ht
      = bottomRows hc (transpose ⟨2, ![c, N]⟩ [1, 0] lp htr) := by
  funext i
  obtain ⟨k, q, rfl⟩ : ∃ (k : Fin b) (q : Fin N), i = ix2 k q := ⟨i 0, i 1, eq_ix2 i⟩
  show _ = transpose ⟨2, ![c, N]⟩ [1, 0] lp htr (ix2 ⟨a + k.val, _⟩ q)
  rw [transpose_ix2_apply, transpose_ix2_apply, slice2_axis1_apply a lp hs q k ⟨a + k.val, by have := k.isLt; omega⟩ rfl]

/-- The sum of the two host products with the transposed column blocks of `lp` is the one host product of the
    side-by-side pair with the transposed `lp`. -/
theorem head_split {M a b c N : Nat} (hc : c = a + b)
    (dA : DotDims ⟨2, ![M, a]⟩ ⟨2, ![a, N]⟩ ⟨2, ![M, N]⟩) (hdA : dA = DotDims.plain M a N)
    (dB : DotDims ⟨2, ![M, b]⟩ ⟨2, ![b, N]⟩ ⟨2, ![M, N]⟩) (hdB : dB = DotDims.plain M b N)
    (dR : DotDims ⟨2, ![M, c]⟩ ⟨2, ![c, N]⟩ ⟨2, ![M, N]⟩) (hdR : dR = DotDims.plain M c N)
    (prec : Option ContractPrecision)
    (xs : FVec Ideal ⟨2, ![M, a]⟩ .f32) (xh : FVec Ideal ⟨2, ![M, b]⟩ .f32) (lp : FVec Ideal ⟨2, ![N, c]⟩ .f32)
    (hcat : Shape.Concatenates [(⟨2, ![M, a]⟩ : Shape), ⟨2, ![M, b]⟩] ⟨2, ![M, c]⟩ 1)
    (htr : (⟨2, ![N, c]⟩ : Shape).Transposes [1, 0] ⟨2, ![c, N]⟩)
    (hsA : (⟨2, ![N, c]⟩ : Shape).Slices ![0, 0] ⟨2, ![N, a]⟩)
    (hsB : (⟨2, ![N, c]⟩ : Shape).Slices ![0, a] ⟨2, ![N, b]⟩)
    (htA : (⟨2, ![N, a]⟩ : Shape).Transposes [1, 0] ⟨2, ![a, N]⟩)
    (htB : (⟨2, ![N, b]⟩ : Shape).Transposes [1, 0] ⟨2, ![b, N]⟩) :
    addf (Host.dotGeneral dA prec xs (transpose ⟨2, ![a, N]⟩ [1, 0] (extractStridedSlice ⟨2, ![N, a]⟩ ![0, 0] lp hsA) htA))
        (Host.dotGeneral dB prec xh (transpose ⟨2, ![b, N]⟩ [1, 0] (extractStridedSlice ⟨2, ![N, b]⟩ ![0, a] lp hsB) htB))
      = Host.dotGeneral dR prec (concatenate ⟨2, ![M, c]⟩ 1 [⟨⟨2, ![M, a]⟩, xs⟩, ⟨⟨2, ![M, b]⟩, xh⟩] hcat)
          (transpose ⟨2, ![c, N]⟩ [1, 0] lp htr) := by
  rw [dotGeneral_eq_project dA hdA, dotGeneral_eq_project dB hdB, dotGeneral_eq_project dR hdR,
    transpose_slice_left hc lp htr hsA htA, transpose_slice_right hc lp htr hsB htB, project_concat hc xs xh _ hcat]
  rfl

end Cert.Layers

end
-- ==== Proof.LibAttnGate.lean ====
/-
  An attention-gated blend of two feature arrays followed by a one-slope leaky rectifier, row by row, over the
  extended reals.

  For feature arrays `a`, `u` of `M` rows and `K` lanes, weight vectors `w1`, `w2` of length `K`, a bias `b` and a
  slope `s` (one-entry arrays), row `p` gets the coefficient
      `α p = logistic (∑ k, a (p, k) · w1 k + ∑ k, u (p, k) · w2 k + b)`
  and entry `(p, q)` of the result is `prelu s ((1 − α p) · a (p, q) + α p · u (p, q))`, where `prelu s y` is `y` when
  `y ≥ 0` and `s · y` otherwise.

  * The function acts row by row (`RowsOf.gate`), so computing it block of rows by block of rows gives the rows of the
    whole-array result.
  * In a kernel it is spelt with two lane reductions kept as columns, a `logistic`, column broadcasts and a `select`
    (`kernel_gate`).
  * On the host it is spelt with ONE contraction of the side-by-side pair `[a | u]` against a `[2K, 1]` weight column,
    the logistic written out as `1 / (1 + exp (−z))`, and `broadcast_in_dim`s (`host_gate`).  The contraction over `2K`
    lanes splits at `K` into the two sums, a regrouping of a finite sum; the written-out logistic IS the logistic of the
    extended reals.  No other law of arithmetic is used, so no finiteness hypothesis is needed.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«104476_j75213467287803_2_alg».proof.Proof.LibKeepdims
import proofs.«104476_j75213467287803_2_alg».proof.Proof.LibLogSoftmax
import proofs.«104476_j75213467287803_2_alg».proof.Proof.LibDenseLayers
import proofs.«104476_j75213467287803_2_alg».proof.Proof.LibRowLocal
import proofs.«104476_j75213467287803_2_alg».proof.Proof.LibHeadSplit

noncomputable section

namespace Cert.Layers

open Idealize.ShloMosaic Idealize.ShloMosaic.ValueIdx

variable {B M K : Nat}

/-- The leaky rectifier with slope `s` on the negative side: `y` when `y ≥ 0`, else `s · y`. -/
def prelu (s y : EReal) : EReal :=
  Scalar.select (FloatOps.cmpf (F := Ideal) (φ := .f32) .oge y (Ideal.ofBits .f32 0x00000000#32)) y (s * y)

/-- The rectifier applied to every entry, the slope a one-entry array. -/
def preluAll {S : Shape} (s : (⟨1, ![1]⟩ : Shape).Idx → EReal) (x : S.Idx → EReal) : S.Idx → EReal :=
  fun i => prelu (s (ix1 (0 : Fin 1))) (x i)

/-- Row `p`'s attention logit. -/
def gateLogit (a u : (⟨2, ![M, K]⟩ : Shape).Idx → EReal) (w1 w2 : (⟨1, ![K]⟩ : Shape).Idx → EReal)
    (b : (⟨1, ![1]⟩ : Shape).Idx → EReal) (p : Fin M) : EReal :=
  (∑ k : Fin K, a (ix2 p k) * w1 (ix1 k)) + (∑ k : Fin K, u (ix2 p k) * w2 (ix1 k)) + b (ix1 (0 : Fin 1))

/-- The gated blend of `a` and `u`, rectified. -/
def gate (a u : (⟨2, ![M, K]⟩ : Shape).Idx → EReal) (w1 w2 : (⟨1, ![K]⟩ : Shape).Idx → EReal)
    (b s : (⟨1, ![1]⟩ : Shape).Idx → EReal) : (⟨2, ![M, K]⟩ : Shape).Idx → EReal :=
  fun i => prelu (s (ix1 (0 : Fin 1)))
    ((Ideal.ofBits .f32 0x3F800000#32 - Ideal.logistic (gateLogit a u w1 w2 b (i 0))) * a i
      + Ideal.logistic (gateLogit a u w1 w2 b (i 0)) * u i)

theorem gate_apply (a u : (⟨2, ![M, K]⟩ : Shape).Idx → EReal) (w1 w2 : (⟨1, ![K]⟩ : Shape).Idx → EReal)
    (b s : (⟨1, ![1]⟩ : Shape).Idx → EReal) (p : Fin M) (q : Fin K) :
    gate a u w1 w2 b s (ix2 p q) = prelu (s (ix1 (0 : Fin 1)))
      ((Ideal.ofBits .f32 0x3F800000#32 - Ideal.logistic (gateLogit a u w1 w2 b p)) * a (ix2 p q)
        + Ideal.logistic (gateLogit a u w1 w2 b p) * u (ix2 p q)) := rfl

/-! ## Row by row -/

/-- The blend of rows is the rows of the blend. -/
theorem RowsOf.gate {r : Fin B → Fin M} {a' u' : (⟨2, ![B, K]⟩ : Shape).Idx → EReal} {a u : (⟨2, ![M, K]⟩ : Shape).Idx → EReal}
    (ha : RowsOf r a' a) (hu : RowsOf r u' u) (w1 w2 : (⟨1, ![K]⟩ : Shape).Idx → EReal) (b s : (⟨1, ![1]⟩ : Shape).Idx → EReal) :
    RowsOf r (Cert.Layers.gate a' u' w1 w2 b s) (Cert.Layers.gate a u w1 w2 b s) := by
  intro p q
  have hl : gateLogit a' u' w1 w2 b p = gateLogit a u w1 w2 b (r p) := by
    unfold gateLogit
    have e1 : ∑ k : Fin K, a' (ix2 p k) * w1 (ix1 k) = ∑ k : Fin K, a (ix2 (r p) k) * w1 (ix1 k) :=
      Finset.sum_congr rfl fun k _ => by rw [ha p k]
    have e2 : ∑ k : Fin K, u' (ix2 p k) * w2 (ix1 k) = ∑ k : Fin K, u (ix2 (r p) k) * w2 (ix1 k) :=
      Finset.sum_congr rfl fun k _ => by rw [hu p k]
    rw [e1, e2]
  rw [gate_apply, gate_apply, hl, ha p q, hu p q]

/-- The rectifier entry by entry commutes with taking rows. -/
theorem RowsOf.preluAll {r : Fin B → Fin M} {a' : (⟨2, ![B, K]⟩ : Shape).Idx → EReal} {a : (⟨2, ![M, K]⟩ : Shape).Idx → EReal}
    (ha : RowsOf r a' a) (s : (⟨1, ![1]⟩ : Shape).Idx → EReal) : RowsOf r (Cert.Layers.preluAll s a') (Cert.Layers.preluAll s a) := by
  intro p q
  show prelu _ (a' (ix2 p q)) = prelu _ (a (ix2 (r p) q))
  rw [ha p q]

/-! ## The kernel's spelling -/

/-- A lane sum of the product with a vector broadcast over the rows, kept as a column: each row's dot product with the vector. -/
theorem kernel_rowDotCol (a : FVec Ideal ⟨2, ![M, K]⟩ .f32) (w : FVec Ideal ⟨1, ![K]⟩ .f32)
    (c1 : (⟨1, ![K]⟩ : Shape).ShapeCasts ⟨2, ![1, K]⟩) (bc : (⟨2, ![1, K]⟩ : Shape).Broadcasts ⟨2, ![M, K]⟩)
    (hr : (⟨2, ![M, K]⟩ : Shape).Reduces [(1 : Fin 2)] (⟨1, ![M]⟩ : Shape)) (hφ : FKind.Formats .f32)
    (hadd : (0x00000000#32 : BitVec 32) = FKind.add.neutral .f32 hφ)
    (cc : (⟨1, ![M]⟩ : Shape).ShapeCasts ⟨2, ![M, 1]⟩) (p : Fin M) (z : Fin 1) :
    shapeCast ⟨2, ![M, 1]⟩ (multiReduction .add [(1 : Fin 2)] ⟨1, ![M]⟩
        (mulf a (broadcastTo ⟨2, ![M, K]⟩ (shapeCast ⟨2, ![1, K]⟩ w c1) bc)) 0x00000000#32 hr hφ hadd) cc (ix2 p z)
      = ∑ k : Fin K, a (ix2 p k) * w (ix1 k) := by
  rw [Cert.LibKeepdims.shapeCast_a_a1_apply _ cc p z, Ideal.multiReduction_add_single _ _ hr hφ hadd (ix1 p)]
  refine Finset.sum_congr rfl fun k _ => ?_
  rw [Cert.Lib.lift_lane hr p k]
  show a (ix2 p _) * broadcastTo ⟨2, ![M, K]⟩ (shapeCast ⟨2, ![1, K]⟩ w c1) bc (ix2 p _) = _
  rw [broadcastTo_1b_ab_apply _ bc p _, shapeCast_a_1a_apply w c1 (0 : Fin 1) _]
  rfl

/-- A one-entry array cast to `[1, 1]` and broadcast to any `[A, C]` reads its entry everywhere. -/
theorem bcast_one_apply {A C : Nat} (v : (⟨1, ![1]⟩ : Shape).Idx → EReal) (c11 : (⟨1, ![1]⟩ : Shape).ShapeCasts ⟨2, ![1, 1]⟩)
    (h : (⟨2, ![1, 1]⟩ : Shape).Broadcasts ⟨2, ![A, C]⟩) (p : Fin A) (q : Fin C) :
    broadcastTo ⟨2, ![A, C]⟩ (shapeCast ⟨2, ![1, 1]⟩ v c11) h (ix2 p q) = v (ix1 (0 : Fin 1)) := by
  rw [broadcastTo_apply _ h (ix2 p q) (ix2 (0 : Fin 1) (0 : Fin 1)) (fun ax => by
    match ax with
    | ⟨0, _⟩ => rfl
    | ⟨1, _⟩ => rfl)]
  exact shapeCast_a_1a_apply v c11 (0 : Fin 1) (0 : Fin 1)

/-- The kernel's spelling of the gated blend. -/
theorem kernel_gate (a u : FVec Ideal ⟨2, ![M, K]⟩ .f32) (w1 w2 : FVec Ideal ⟨1, ![K]⟩ .f32) (b s : FVec Ideal ⟨1, ![1]⟩ .f32)
    (c1 : (⟨1, ![K]⟩ : Shape).ShapeCasts ⟨2, ![1, K]⟩) (bc : (⟨2, ![1, K]⟩ : Shape).Broadcasts ⟨2, ![M, K]⟩)
    (hr : (⟨2, ![M, K]⟩ : Shape).Reduces [(1 : Fin 2)] (⟨1, ![M]⟩ : Shape)) (hφ : FKind.Formats .f32)
    (hadd : (0x00000000#32 : BitVec 32) = FKind.add.neutral .f32 hφ)
    (cc : (⟨1, ![M]⟩ : Shape).ShapeCasts ⟨2, ![M, 1]⟩) (c11 : (⟨1, ![1]⟩ : Shape).ShapeCasts ⟨2, ![1, 1]⟩)
    (b11 : (⟨2, ![1, 1]⟩ : Shape).Broadcasts ⟨2, ![M, 1]⟩) (bcol : (⟨2, ![M, 1]⟩ : Shape).Broadcasts ⟨2, ![M, K]⟩)
    (b11K : (⟨2, ![1, 1]⟩ : Shape).Broadcasts ⟨2, ![M, K]⟩) :
    select
      (cmpf .oge
        (addf
          (mulf (broadcastTo ⟨2, ![M, K]⟩ (subf (broadcast ⟨2, ![M, 1]⟩ (Scalar.ofBits (F := Ideal) .f32 0x3F800000#32))
            (logistic (addf (addf
              (shapeCast ⟨2, ![M, 1]⟩ (multiReduction .add [(1 : Fin 2)] ⟨1, ![M]⟩
                (mulf a (broadcastTo ⟨2, ![M, K]⟩ (shapeCast ⟨2, ![1, K]⟩ w1 c1) bc)) 0x00000000#32 hr hφ hadd) cc)
              (shapeCast ⟨2, ![M, 1]⟩ (multiReduction .add [(1 : Fin 2)] ⟨1, ![M]⟩
                (mulf u (broadcastTo ⟨2, ![M, K]⟩ (shapeCast ⟨2, ![1, K]⟩ w2 c1) bc)) 0x00000000#32 hr hφ hadd) cc))
              (broadcastTo ⟨2, ![M, 1]⟩ (shapeCast ⟨2, ![1, 1]⟩ b c11) b11)))) bcol) a)
          (mulf (broadcastTo ⟨2, ![M, K]⟩
            (logistic (addf (addf
              (shapeCast ⟨2, ![M, 1]⟩ (multiReduction .add [(1 : Fin 2)] ⟨1, ![M]⟩
                (mulf a (broadcastTo ⟨2, ![M, K]⟩ (shapeCast ⟨2, ![1, K]⟩ w1 c1) bc)) 0x00000000#32 hr hφ hadd) cc)
              (shapeCast ⟨2, ![M, 1]⟩ (multiReduction .add [(1 : Fin 2)] ⟨1, ![M]⟩
                (mulf u (broadcastTo ⟨2, ![M, K]⟩ (shapeCast ⟨2, ![1, K]⟩ w2 c1) bc)) 0x00000000#32 hr hφ hadd) cc))
              (broadcastTo ⟨2, ![M, 1]⟩ (shapeCast ⟨2, ![1, 1]⟩ b c11) b11))) bcol) u))
        (broadcast ⟨2, ![M, K]⟩ (Scalar.ofBits (F := Ideal) .f32 0x00000000#32)))
      (addf
          (mulf (broadcastTo ⟨2, ![M, K]⟩ (subf (broadcast ⟨2, ![M, 1]⟩ (Scalar.ofBits (F := Ideal) .f32 0x3F800000#32))
            (logistic (addf (addf
              (shapeCast ⟨2, ![M, 1]⟩ (multiReduction .add [(1 : Fin 2)] ⟨1, ![M]⟩
                (mulf a (broadcastTo ⟨2, ![M, K]⟩ (shapeCast ⟨2, ![1, K]⟩ w1 c1) bc)) 0x00000000#32 hr hφ hadd) cc)
              (shapeCast ⟨2, ![M, 1]⟩ (multiReduction .add [(1 : Fin 2)] ⟨1, ![M]⟩
                (mulf u (broadcastTo ⟨2, ![M, K]⟩ (shapeCast ⟨2, ![1, K]⟩ w2 c1) bc)) 0x00000000#32 hr hφ hadd) cc))
              (broadcastTo ⟨2, ![M, 1]⟩ (shapeCast ⟨2, ![1, 1]⟩ b c11) b11)))) bcol) a)
          (mulf (broadcastTo ⟨2, ![M, K]⟩
            (logistic (addf (addf
              (shapeCast ⟨2, ![M, 1]⟩ (multiReduction .add [(1 : Fin 2)] ⟨1, ![M]⟩
                (mulf a (broadcastTo ⟨2, ![M, K]⟩ (shapeCast ⟨2, ![1, K]⟩ w1 c1) bc)) 0x00000000#32 hr hφ hadd) cc)
              (shapeCast ⟨2, ![M, 1]⟩ (multiReduction .add [(1 : Fin 2)] ⟨1, ![M]⟩
                (mulf u (broadcastTo ⟨2, ![M, K]⟩ (shapeCast ⟨2, ![1, K]⟩ w2 c1) bc)) 0x00000000#32 hr hφ hadd) cc))
              (broadcastTo ⟨2, ![M, 1]⟩ (shapeCast ⟨2, ![1, 1]⟩ b c11) b11))) bcol) u))
      (mulf (broadcastTo ⟨2, ![M, K]⟩ (shapeCast ⟨2, ![1, 1]⟩ s c11) b11K)
        (addf
          (mulf (broadcastTo ⟨2, ![M, K]⟩ (subf (broadcast ⟨2, ![M, 1]⟩ (Scalar.ofBits (F := Ideal) .f32 0x3F800000#32))
            (logistic (addf (addf
              (shapeCast ⟨2, ![M, 1]⟩ (multiReduction .add [(1 : Fin 2)] ⟨1, ![M]⟩
                (mulf a (broadcastTo ⟨2, ![M, K]⟩ (shapeCast ⟨2, ![1, K]⟩ w1 c1) bc)) 0x00000000#32 hr hφ hadd) cc)
              (shapeCast ⟨2, ![M, 1]⟩ (multiReduction .add [(1 : Fin 2)] ⟨1, ![M]⟩
                (mulf u (broadcastTo ⟨2, ![M, K]⟩ (shapeCast ⟨2, ![1, K]⟩ w2 c1) bc)) 0x00000000#32 hr hφ hadd) cc))
              (broadcastTo ⟨2, ![M, 1]⟩ (shapeCast ⟨2, ![1, 1]⟩ b c11) b11)))) bcol) a)
          (mulf (broadcastTo ⟨2, ![M, K]⟩
            (logistic (addf (addf
              (shapeCast ⟨2, ![M, 1]⟩ (multiReduction .add [(1 : Fin 2)] ⟨1, ![M]⟩
                (mulf a (broadcastTo ⟨2, ![M, K]⟩ (shapeCast ⟨2, ![1, K]⟩ w1 c1) bc)) 0x00000000#32 hr hφ hadd) cc)
              (shapeCast ⟨2, ![M, 1]⟩ (multiReduction .add [(1 : Fin 2)] ⟨1, ![M]⟩
                (mulf u (broadcastTo ⟨2, ![M, K]⟩ (shapeCast ⟨2, ![1, K]⟩ w2 c1) bc)) 0x00000000#32 hr hφ hadd) cc))
              (broadcastTo ⟨2, ![M, 1]⟩ (shapeCast ⟨2, ![1, 1]⟩ b c11) b11))) bcol) u)))
      = gate a u w1 w2 b s := by
  -- the coefficient column, read at row `p`
  have hα : ∀ (p : Fin M) (z : Fin 1),
      logistic (addf (addf
          (shapeCast ⟨2, ![M, 1]⟩ (multiReduction .add [(1 : Fin 2)] ⟨1, ![M]⟩
            (mulf a (broadcastTo ⟨2, ![M, K]⟩ (shapeCast ⟨2, ![1, K]⟩ w1 c1) bc)) 0x00000000#32 hr hφ hadd) cc)
          (shapeCast ⟨2, ![M, 1]⟩ (multiReduction .add [(1 : Fin 2)] ⟨1, ![M]⟩
            (mulf u (broadcastTo ⟨2, ![M, K]⟩ (shapeCast ⟨2, ![1, K]⟩ w2 c1) bc)) 0x00000000#32 hr hφ hadd) cc))
          (broadcastTo ⟨2, ![M, 1]⟩ (shapeCast ⟨2, ![1, 1]⟩ b c11) b11)) (ix2 p z)
        = Ideal.logistic (gateLogit a u w1 w2 b p) := by
    intro p z
    show Ideal.logistic ((shapeCast ⟨2, ![M, 1]⟩ _ cc (ix2 p z) + shapeCast ⟨2, ![M, 1]⟩ _ cc (ix2 p z))
      + broadcastTo ⟨2, ![M, 1]⟩ (shapeCast ⟨2, ![1, 1]⟩ b c11) b11 (ix2 p z)) = _
    rw [kernel_rowDotCol a w1 c1 bc hr hφ hadd cc p z, kernel_rowDotCol u w2 c1 bc hr hφ hadd cc p z,
      bcast_one_apply b c11 b11 p z]
    rfl
  funext i
  obtain ⟨p, q, rfl⟩ : ∃ (p : Fin M) (q : Fin K), i = ix2 p q := ⟨i 0, i 1, eq_ix2 i⟩
  rw [gate_apply]
  show Scalar.select (FloatOps.cmpf (F := Ideal) (φ := .f32) .oge
        ((broadcastTo ⟨2, ![M, K]⟩ _ bcol (ix2 p q) * a (ix2 p q)) + (broadcastTo ⟨2, ![M, K]⟩ _ bcol (ix2 p q) * u (ix2 p q)))
        (Ideal.ofBits .f32 0x00000000#32))
      ((broadcastTo ⟨2, ![M, K]⟩ _ bcol (ix2 p q) * a (ix2 p q)) + (broadcastTo ⟨2, ![M, K]⟩ _ bcol (ix2 p q) * u (ix2 p q)))
      (broadcastTo ⟨2, ![M, K]⟩ (shapeCast ⟨2, ![1, 1]⟩ s c11) b11K (ix2 p q)
        * ((broadcastTo ⟨2, ![M, K]⟩ _ bcol (ix2 p q) * a (ix2 p q)) + (broadcastTo ⟨2, ![M, K]⟩ _ bcol (ix2 p q) * u (ix2 p q))))
    = _
  rw [Cert.LibKeepdims.broadcastTo_a1_ab_apply _ bcol p q, Cert.LibKeepdims.broadcastTo_a1_ab_apply _ bcol p q,
    bcast_one_apply s c11 b11K p q]
  show Scalar.select (FloatOps.cmpf (F := Ideal) (φ := .f32) .oge
        (((Ideal.ofBits .f32 0x3F800000#32 - logistic _ (ix2 p (0 : Fin 1))) * a (ix2 p q)) + (logistic _ (ix2 p (0 : Fin 1)) * u (ix2 p q)))
        (Ideal.ofBits .f32 0x00000000#32))
      (((Ideal.ofBits .f32 0x3F800000#32 - logistic _ (ix2 p (0 : Fin 1))) * a (ix2 p q)) + (logistic _ (ix2 p (0 : Fin 1)) * u (ix2 p q)))
      (s (ix1 (0 : Fin 1))
        * (((Ideal.ofBits .f32 0x3F800000#32 - logistic _ (ix2 p (0 : Fin 1))) * a (ix2 p q)) + (logistic _ (ix2 p (0 : Fin 1)) * u (ix2 p q))))
    = _
  rw [hα p (0 : Fin 1)]
  rfl

end Cert.Layers

end
-- ==== Proof.LibAttnGateHost.lean ====
/-
  The host's spelling of the attention-gated blend (see the kernel's in the module this one imports).

  On the host the two lane sums are ONE contraction: the two feature arrays are laid side by side, `[a | u] : [M, 2K]`, and
  multiplied with the weight column `[2K, 1]`; the bias is broadcast `[1] → [1, 1] → [M, 1]`; the logistic is written
  out as `1 / (1 + exp (−z))`; the coefficient column is broadcast over the lanes by `broadcast_in_dim`; the rectifier is
  a `select` on `y ≥ 0` between `y` and `slope · y`.

  The contraction over `2K` lanes splits at `K` into the sum against the column's first `K` entries and the sum against
  its last `K` — a regrouping of a finite sum in a commutative monoid, valid on the extended reals as it stands. The
  written-out logistic is the logistic of the extended reals by definition once the pattern `0x3F800000` is read as `1`.
-/
import Idealize.ShloMosaic.Lib.IdealHost
import proofs.«104476_j75213467287803_2_alg».proof.Proof.LibAttnGate

noncomputable section

namespace Cert.Layers

open Idealize.ShloMosaic Idealize.ShloMosaic.ValueIdx

variable {M K c : Nat}

/-- The first `K` entries of a weight column of `c = K + K` entries, as a vector. -/
def colTop (hc : c = K + K) (aw : (⟨2, ![c, 1]⟩ : Shape).Idx → EReal) : (⟨1, ![K]⟩ : Shape).Idx → EReal :=
  fun i => topRows hc aw (ix2 (i 0) (0 : Fin 1))

/-- Its last `K` entries. -/
def colBot (hc : c = K + K) (aw : (⟨2, ![c, 1]⟩ : Shape).Idx → EReal) : (⟨1, ![K]⟩ : Shape).Idx → EReal :=
  fun i => bottomRows hc aw (ix2 (i 0) (0 : Fin 1))

/-- A one-entry array broadcast `[1] → [1, 1] → [A, C]` reads its entry everywhere. -/
theorem bcastInDim_one_apply {A C : Nat} (v : (⟨1, ![1]⟩ : Shape).Idx → EReal)
    (h11 : (⟨1, ![1]⟩ : Shape).BroadcastsInDim ⟨2, ![1, 1]⟩ ![1])
    (h : (⟨2, ![1, 1]⟩ : Shape).BroadcastsInDim ⟨2, ![A, C]⟩ ![0, 1]) (p : Fin A) (q : Fin C) :
    broadcastInDim ⟨2, ![A, C]⟩ ![0, 1] h (broadcastInDim ⟨2, ![1, 1]⟩ ![1] h11 v) (ix2 p q) = v (ix1 (0 : Fin 1)) := by
  rw [broadcastInDim_apply ![0, 1] h _ (ix2 p q) (ix2 (0 : Fin 1) (0 : Fin 1)) (fun ax => by
    match ax with
    | ⟨0, _⟩ => rfl
    | ⟨1, _⟩ => rfl)]
  rw [broadcastInDim_apply ![1] h11 v (ix2 (0 : Fin 1) (0 : Fin 1)) (ix1 (0 : Fin 1)) (fun ax => by
    match ax with
    | ⟨0, _⟩ => rfl)]

/-- A column `[A, 1]` broadcast over `C` lanes by `broadcast_in_dim` reads the column at the row. -/
theorem bcastInDim_col_apply {A C : Nat} (v : (⟨2, ![A, 1]⟩ : Shape).Idx → EReal)
    (h : (⟨2, ![A, 1]⟩ : Shape).BroadcastsInDim ⟨2, ![A, C]⟩ ![0, 1]) (p : Fin A) (q : Fin C) :
    broadcastInDim ⟨2, ![A, C]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if A = 1 then 0 else p.val
      split
      · have := p.isLt; omega
      · rfl
    | ⟨1, _⟩ => rfl)

/-- The host's coefficient column: the logistic, written out, of the pair's contraction with the weight column plus the bias. -/
def hostAlpha (a u : FVec Ideal ⟨2, ![M, K]⟩ .f32) (aw : FVec Ideal ⟨2, ![c, 1]⟩ .f32) (b : FVec Ideal ⟨1, ![1]⟩ .f32)
    (d : DotDims ⟨2, ![M, c]⟩ ⟨2, ![c, 1]⟩ ⟨2, ![M, 1]⟩) (prec : Option ContractPrecision)
    (hcat : Shape.Concatenates [(⟨2, ![M, K]⟩ : Shape), ⟨2, ![M, K]⟩] ⟨2, ![M, c]⟩ 1)
    (h11 : (⟨1, ![1]⟩ : Shape).BroadcastsInDim ⟨2, ![1, 1]⟩ ![1])
    (hb1 : (⟨2, ![1, 1]⟩ : Shape).BroadcastsInDim ⟨2, ![M, 1]⟩ ![0, 1])
    (h0c : (⟨0, ![]⟩ : Shape).BroadcastsInDim ⟨2, ![M, 1]⟩ ![]) : FVec Ideal ⟨2, ![M, 1]⟩ .f32 :=
  Host.divf (broadcastInDim ⟨2, ![M, 1]⟩ ![] h0c (constant (F := Ideal) ⟨0, ![]⟩ .f32 0x3F800000#32))
    (addf (broadcastInDim ⟨2, ![M, 1]⟩ ![] h0c (constant (F := Ideal) ⟨0, ![]⟩ .f32 0x3F800000#32))
      (Host.exp (Host.negf (addf
        (Host.dotGeneral d prec (concatenate ⟨2, ![M, c]⟩ 1 [⟨⟨2, ![M, K]⟩, a⟩, ⟨⟨2, ![M, K]⟩, u⟩] hcat) aw)
        (broadcastInDim ⟨2, ![M, 1]⟩ ![0, 1] hb1 (broadcastInDim ⟨2, ![1, 1]⟩ ![1] h11 b))))))

/-- The host's coefficient of row `p` is the logistic of the row's attention logit. -/
theorem hostAlpha_apply (hc : c = K + K) (a u : FVec Ideal ⟨2, ![M, K]⟩ .f32) (aw : FVec Ideal ⟨2, ![c, 1]⟩ .f32)
    (b : FVec Ideal ⟨1, ![1]⟩ .f32)
    (d : DotDims ⟨2, ![M, c]⟩ ⟨2, ![c, 1]⟩ ⟨2, ![M, 1]⟩) (hd : d = DotDims.plain M c 1) (prec : Option ContractPrecision)
    (hcat : Shape.Concatenates [(⟨2, ![M, K]⟩ : Shape), ⟨2, ![M, K]⟩] ⟨2, ![M, c]⟩ 1)
    (h11 : (⟨1, ![1]⟩ : Shape).BroadcastsInDim ⟨2, ![1, 1]⟩ ![1])
    (hb1 : (⟨2, ![1, 1]⟩ : Shape).BroadcastsInDim ⟨2, ![M, 1]⟩ ![0, 1])
    (h0c : (⟨0, ![]⟩ : Shape).BroadcastsInDim ⟨2, ![M, 1]⟩ ![]) (p : Fin M) :
    hostAlpha a u aw b d prec hcat h11 hb1 h0c (ix2 p (0 : Fin 1))
      = Ideal.logistic (gateLogit a u (colTop hc aw) (colBot hc aw) b p) := by
  unfold hostAlpha
  show Ideal.div (broadcastInDim ⟨2, ![M, 1]⟩ ![] h0c (constant (F := Ideal) ⟨0, ![]⟩ .f32 0x3F800000#32) (ix2 p (0 : Fin 1)))
      (broadcastInDim ⟨2, ![M, 1]⟩ ![] h0c (constant (F := Ideal) ⟨0, ![]⟩ .f32 0x3F800000#32) (ix2 p (0 : Fin 1))
        + Ideal.exp (-(Host.dotGeneral d prec (concatenate ⟨2, ![M, c]⟩ 1 [⟨⟨2, ![M, K]⟩, a⟩, ⟨⟨2, ![M, K]⟩, u⟩] hcat) aw (ix2 p (0 : Fin 1))
          + broadcastInDim ⟨2, ![M, 1]⟩ ![0, 1] hb1 (broadcastInDim ⟨2, ![1, 1]⟩ ![1] h11 b) (ix2 p (0 : Fin 1))))) = _
  rw [broadcastInDim_apply ![] h0c _ (ix2 p (0 : Fin 1)) ix0 (fun ax => ax.elim0), bcastInDim_one_apply b h11 hb1 p (0 : Fin 1),
    dotGeneral_eq_project d hd prec, project_concat hc a u aw hcat]
  show Ideal.div (Ideal.ofBits .f32 0x3F800000#32) (Ideal.ofBits .f32 0x3F800000#32
      + Ideal.exp (-((project a (topRows hc aw) (ix2 p (0 : Fin 1)) + project u (bottomRows hc aw) (ix2 p (0 : Fin 1))) + b (ix1 (0 : Fin 1))))) = _
  rw [Ideal.ofBits_one_f32, project_apply, project_apply]
  rfl

/-- The host's rectifier: a `select` on `y ≥ 0` between `y` and the broadcast slope times `y`. -/
theorem host_prelu {A C : Nat} (x : FVec Ideal ⟨2, ![A, C]⟩ .f32) (s : FVec Ideal ⟨1, ![1]⟩ .f32)
    (h11 : (⟨1, ![1]⟩ : Shape).BroadcastsInDim ⟨2, ![1, 1]⟩ ![1])
    (h0K : (⟨0, ![]⟩ : Shape).BroadcastsInDim ⟨2, ![A, C]⟩ ![])
    (hbK : (⟨2, ![1, 1]⟩ : Shape).BroadcastsInDim ⟨2, ![A, C]⟩ ![0, 1]) :
    select (cmpf .oge x (broadcastInDim ⟨2, ![A, C]⟩ ![] h0K (constant (F := Ideal) ⟨0, ![]⟩ .f32 0x00000000#32))) x
        (mulf (broadcastInDim ⟨2, ![A, C]⟩ ![0, 1] hbK (broadcastInDim ⟨2, ![1, 1]⟩ ![1] h11 s)) x)
      = preluAll s x := by
  funext i
  obtain ⟨p, q, rfl⟩ : ∃ (p : Fin A) (q : Fin C), i = ix2 p q := ⟨i 0, i 1, eq_ix2 i⟩
  show Scalar.select (FloatOps.cmpf (F := Ideal) (φ := .f32) .oge (x (ix2 p q))
        (broadcastInDim ⟨2, ![A, C]⟩ ![] h0K (constant (F := Ideal) ⟨0, ![]⟩ .f32 0x00000000#32) (ix2 p q))) (x (ix2 p q))
      (broadcastInDim ⟨2, ![A, C]⟩ ![0, 1] hbK (broadcastInDim ⟨2, ![1, 1]⟩ ![1] h11 s) (ix2 p q) * x (ix2 p q)) = _
  rw [bcastInDim_one_apply s h11 hbK p q, broadcastInDim_apply ![] h0K _ (ix2 p q) ix0 (fun ax => ax.elim0)]
  rfl

/-- The kernel's rectifier: the same `select`, the slope cast to `[1, 1]` and broadcast, the zero a splat. -/
theorem kernel_prelu {A C : Nat} (x : FVec Ideal ⟨2, ![A, C]⟩ .f32) (s : FVec Ideal ⟨1, ![1]⟩ .f32)
    (c11 : (⟨1, ![1]⟩ : Shape).ShapeCasts ⟨2, ![1, 1]⟩) (b11K : (⟨2, ![1, 1]⟩ : Shape).Broadcasts ⟨2, ![A, C]⟩) :
    select (cmpf .oge x (broadcast ⟨2, ![A, C]⟩ (Scalar.ofBits (F := Ideal) .f32 0x00000000#32))) x
        (mulf (broadcastTo ⟨2, ![A, C]⟩ (shapeCast ⟨2, ![1, 1]⟩ s c11) b11K) x)
      = preluAll s x := by
  funext i
  obtain ⟨p, q, rfl⟩ : ∃ (p : Fin A) (q : Fin C), i = ix2 p q := ⟨i 0, i 1, eq_ix2 i⟩
  show Scalar.select (FloatOps.cmpf (F := Ideal) (φ := .f32) .oge (x (ix2 p q)) (Ideal.ofBits .f32 0x00000000#32)) (x (ix2 p q))
      (broadcastTo ⟨2, ![A, C]⟩ (shapeCast ⟨2, ![1, 1]⟩ s c11) b11K (ix2 p q) * x (ix2 p q)) = _
  rw [bcast_one_apply s c11 b11K p q]
  rfl

/-- The host's convex blend with a coefficient column `α`, read at `(p, q)`. -/
theorem host_blend_apply (α : FVec Ideal ⟨2, ![M, 1]⟩ .f32) (a u : FVec Ideal ⟨2, ![M, K]⟩ .f32)
    (h0c : (⟨0, ![]⟩ : Shape).BroadcastsInDim ⟨2, ![M, 1]⟩ ![])
    (hcol : (⟨2, ![M, 1]⟩ : Shape).BroadcastsInDim ⟨2, ![M, K]⟩ ![0, 1]) (p : Fin M) (q : Fin K) :
    addf
        (mulf (broadcastInDim ⟨2, ![M, K]⟩ ![0, 1] hcol
          (subf (broadcastInDim ⟨2, ![M, 1]⟩ ![] h0c (constant (F := Ideal) ⟨0, ![]⟩ .f32 0x3F800000#32)) α)) a)
        (mulf (broadcastInDim ⟨2, ![M, K]⟩ ![0, 1] hcol α) u) (ix2 p q)
      = (Ideal.ofBits .f32 0x3F800000#32 - α (ix2 p (0 : Fin 1))) * a (ix2 p q) + α (ix2 p (0 : Fin 1)) * u (ix2 p q) := by
  rw [addf_apply, mulf_apply, mulf_apply, bcastInDim_col_apply _ hcol p q, bcastInDim_col_apply α hcol p q, subf_apply,
    broadcastInDim_apply ![] h0c _ (ix2 p (0 : Fin 1)) ix0 (fun ax => ax.elim0)]
  rfl

/-- The host's spelling of the gated blend. -/
theorem host_gate (hc : c = K + K) (a u : FVec Ideal ⟨2, ![M, K]⟩ .f32) (aw : FVec Ideal ⟨2, ![c, 1]⟩ .f32)
    (b s : FVec Ideal ⟨1, ![1]⟩ .f32)
    (d : DotDims ⟨2, ![M, c]⟩ ⟨2, ![c, 1]⟩ ⟨2, ![M, 1]⟩) (hd : d = DotDims.plain M c 1) (prec : Option ContractPrecision)
    (hcat : Shape.Concatenates [(⟨2, ![M, K]⟩ : Shape), ⟨2, ![M, K]⟩] ⟨2, ![M, c]⟩ 1)
    (h11 : (⟨1, ![1]⟩ : Shape).BroadcastsInDim ⟨2, ![1, 1]⟩ ![1])
    (hb1 : (⟨2, ![1, 1]⟩ : Shape).BroadcastsInDim ⟨2, ![M, 1]⟩ ![0, 1])
    (h0c : (⟨0, ![]⟩ : Shape).BroadcastsInDim ⟨2, ![M, 1]⟩ ![])
    (hcol : (⟨2, ![M, 1]⟩ : Shape).BroadcastsInDim ⟨2, ![M, K]⟩ ![0, 1])
    (h0K : (⟨0, ![]⟩ : Shape).BroadcastsInDim ⟨2, ![M, K]⟩ ![])
    (hbK : (⟨2, ![1, 1]⟩ : Shape).BroadcastsInDim ⟨2, ![M, K]⟩ ![0, 1]) :
    select
      (cmpf .oge
        (addf
          (mulf (broadcastInDim ⟨2, ![M, K]⟩ ![0, 1] hcol
            (subf (broadcastInDim ⟨2, ![M, 1]⟩ ![] h0c (constant (F := Ideal) ⟨0, ![]⟩ .f32 0x3F800000#32))
              (hostAlpha a u aw b d prec hcat h11 hb1 h0c))) a)
          (mulf (broadcastInDim ⟨2, ![M, K]⟩ ![0, 1] hcol (hostAlpha a u aw b d prec hcat h11 hb1 h0c)) u))
        (broadcastInDim ⟨2, ![M, K]⟩ ![] h0K (constant (F := Ideal) ⟨0, ![]⟩ .f32 0x00000000#32)))
      (addf
          (mulf (broadcastInDim ⟨2, ![M, K]⟩ ![0, 1] hcol
            (subf (broadcastInDim ⟨2, ![M, 1]⟩ ![] h0c (constant (F := Ideal) ⟨0, ![]⟩ .f32 0x3F800000#32))
              (hostAlpha a u aw b d prec hcat h11 hb1 h0c))) a)
          (mulf (broadcastInDim ⟨2, ![M, K]⟩ ![0, 1] hcol (hostAlpha a u aw b d prec hcat h11 hb1 h0c)) u))
      (mulf (broadcastInDim ⟨2, ![M, K]⟩ ![0, 1] hbK (broadcastInDim ⟨2, ![1, 1]⟩ ![1] h11 s))
        (addf
          (mulf (broadcastInDim ⟨2, ![M, K]⟩ ![0, 1] hcol
            (subf (broadcastInDim ⟨2, ![M, 1]⟩ ![] h0c (constant (F := Ideal) ⟨0, ![]⟩ .f32 0x3F800000#32))
              (hostAlpha a u aw b d prec hcat h11 hb1 h0c))) a)
          (mulf (broadcastInDim ⟨2, ![M, K]⟩ ![0, 1] hcol (hostAlpha a u aw b d prec hcat h11 hb1 h0c)) u)))
      = gate a u (colTop hc aw) (colBot hc aw) b s := by
  refine (host_prelu _ s h11 h0K hbK).trans ?_
  funext i
  obtain ⟨p, q, rfl⟩ : ∃ (p : Fin M) (q : Fin K), i = ix2 p q := ⟨i 0, i 1, eq_ix2 i⟩
  rw [gate_apply, ← hostAlpha_apply hc a u aw b d hd prec hcat h11 hb1 h0c p]
  exact congrArg (prelu (s (ix1 (0 : Fin 1))))
    (host_blend_apply (hostAlpha a u aw b d prec hcat h11 hb1 h0c) a u h0c hcol p q)

end Cert.Layers

end
-- ==== Proof.LibHead.lean ====
/-
  The classifier head of a node-classification network, row by row, over the extended reals: rectify the features with a
  one-slope leaky rectifier, project them to `C` classes, add the class bias row, and take the row-wise log-softmax
      `head x s w b = logSoftmax (addRow (project (prelu s ∘ x) w) b)`.
  Each of its four steps computes row `p` of its result from row `p` of its operand, so the head of a block of rows is
  the block of rows of the head (`RowsOf.head`).
-/
import proofs.«104476_j75213467287803_2_alg».proof.Proof.LibLogSoftmax
import proofs.«104476_j75213467287803_2_alg».proof.Proof.LibAttnGate

noncomputable section

namespace Cert.Layers

open Idealize.ShloMosaic Idealize.ShloMosaic.ValueIdx

variable {B M K C : Nat}

/-- The row-wise log-softmax of rows is the rows of the row-wise log-softmax: a row's maximum and its sum of
    exponentials read that row only. -/
theorem RowsOf.logSoftmax {r : Fin B → Fin M} {z' : (⟨2, ![B, C]⟩ : Shape).Idx → EReal} {z : (⟨2, ![M, C]⟩ : Shape).Idx → EReal}
    (h : RowsOf r z' z) : RowsOf r (Cert.Lib.logSoftmax z') (Cert.Lib.logSoftmax z) := by
  have hmax : ∀ p : Fin B, Cert.Lib.rowMax z' p = Cert.Lib.rowMax z (r p) := fun p =>
    congrArg (fun f => (Finset.univ : Finset (Fin C)).fold max (Ideal.ofBits .f32 0xFF800000#32) f) (funext fun j => h p j)
  have hsh : ∀ (p : Fin B) (q : Fin C), Cert.Lib.shifted z' (ix2 p q) = Cert.Lib.shifted z (ix2 (r p) q) := fun p q => by
    show z' (ix2 p q) - Cert.Lib.rowMax z' p = z (ix2 (r p) q) - Cert.Lib.rowMax z (r p)
    rw [h p q, hmax p]
  intro p q
  show Cert.Lib.shifted z' (ix2 p q) - Ideal.log (∑ j : Fin C, Ideal.exp (Cert.Lib.shifted z' (ix2 p j)))
    = Cert.Lib.shifted z (ix2 (r p) q) - Ideal.log (∑ j : Fin C, Ideal.exp (Cert.Lib.shifted z (ix2 (r p) j)))
  rw [hsh p q, Finset.sum_congr rfl fun j _ => by rw [hsh p j]]

/-- The classifier head. -/
def head (x : (⟨2, ![M, K]⟩ : Shape).Idx → EReal) (s : (⟨1, ![1]⟩ : Shape).Idx → EReal)
    (w : (⟨2, ![K, C]⟩ : Shape).Idx → EReal) (b : (⟨2, ![1, C]⟩ : Shape).Idx → EReal) : (⟨2, ![M, C]⟩ : Shape).Idx → EReal :=
  Cert.Lib.logSoftmax (addRow (project (preluAll s x) w) b)

/-- The head of rows is the rows of the head. -/
theorem RowsOf.head {r : Fin B → Fin M} {x' : (⟨2, ![B, K]⟩ : Shape).Idx → EReal} {x : (⟨2, ![M, K]⟩ : Shape).Idx → EReal}
    (h : RowsOf r x' x) (s : (⟨1, ![1]⟩ : Shape).Idx → EReal) (w : (⟨2, ![K, C]⟩ : Shape).Idx → EReal)
    (b : (⟨2, ![1, C]⟩ : Shape).Idx → EReal) : RowsOf r (Cert.Layers.head x' s w b) (Cert.Layers.head x s w b) :=
  RowsOf.logSoftmax (RowsOf.addRow (RowsOf.project (RowsOf.preluAll h s) w) b)

end Cert.Layers

end
-- ==== Proof.KernelRegion2.lean ====
/-
  The idealized kernel's last region (the classifier head) as one whole-array function.

  The region runs over twenty grid points; point `t` loads rows `5000·t … 5000·t + 4999` of the aggregated messages and the
  whole of the weight matrix, the rectifier's slope, the class weights and the class bias, and writes back rows
  `5000·t …` of the result. Its body is a product with the weights into a zero accumulator, the rectifier, a second product
  plus the bias row, and a lane-wise log-softmax: `head (project msg w) s ow ob` of the loaded block. As every step acts row
  by row, block `t` of `head (project MSG w) s ow ob` of the WHOLE arrays is what point `t` writes; the twenty blocks tile
  the result, so the result array ends at that function of the arrays the region found.
-/
import Idealize.ShloMosaic.Lib.Pipeline.Value
import proofs.«104476_j75213467287803_2_alg».proof.Proof.KernelIdealFrameP
import proofs.«104476_j75213467287803_2_alg».proof.Proof.LibKernelDense
import proofs.«104476_j75213467287803_2_alg».proof.Proof.LibAttnGateHost
import proofs.«104476_j75213467287803_2_alg».proof.Proof.LibHead

set_option maxRecDepth 16384

noncomputable section

namespace Cert.KernelIdeal.Blocks

open Cert.KernelIdeal Cert.KernelIdeal.Gen Cert.KernelIdeal.GenP Cert.Layers
open Idealize.ShloMosaic Idealize.ShloMosaic.TcCoe Idealize.ShloMosaic.ValueIdx Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl

/-- A product into the zero accumulator with the ordinary dimension numbers is the projection (the changes of float
    format around it are the identity on the extended reals). -/
theorem matmul_eq_project {M K N : Nat} {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) :
    matmul d none x w (constant ⟨2, ![M, N]⟩ .f32 0x00000000#32) = project x w := by
  subst hd
  funext i
  obtain ⟨p, q, rfl⟩ : ∃ (p : Fin M) (q : Fin N), i = ix2 p q := ⟨i 0, i 1, eq_ix2 i⟩
  exact Cert.Lib.matmul_plain_zero_apply none x w p q

/-- The body of the last region: the head of the projected block. -/
theorem pay2_eq (x0 : Vec Ideal S5000x128 .f32) (x1 : Vec Ideal S128x128 .f32) (x2 : Vec Ideal S1 .f32)
    (x3 : Vec Ideal S128x64 .f32) (x4 : Vec Ideal S64 .f32) :
    k2_pay1 (F := Ideal) x0 x1 x2 x3 x4 = head (project x0 x1) x2 x3 (shapeCast S1x64 x4 shapeCasts_S64_S1x64) := by
  unfold k2_pay1
  simp only [shapeCast_self]
  refine (Cert.Lib.kernel_logSoftmax _ reduces_S5000x64_S5000 (.inl rfl) rfl rfl shapeCasts_S5000_S5000x1
    broadcasts_S5000x1_S5000x64).trans ?_
  unfold head
  refine congrArg Cert.Lib.logSoftmax ?_
  refine (Cert.Lib.matmul_bias_eq_addRow dot_S5000x128_S128x64_S5000x64_1_0_0_1_n_n rfl none _ _ _
    broadcasts_S1x64_S5000x64).trans ?_
  refine congrArg (fun z => addRow (project z x3) (shapeCast S1x64 x4 shapeCasts_S64_S1x64)) ?_
  refine (kernel_prelu _ x2 shapeCasts_S1_S1x1 broadcasts_S1x1_S5000x128).trans ?_
  exact congrArg (preluAll x2) (matmul_eq_project dot_S5000x128_S128x128_S5000x128_1_0_0_1_n_n rfl _ _)

section Region2

variable (V : (c : Dev nD) → (b : Ref sig .tc) → Buf (Elt Ideal) ((c : Thread nD τ).loc b))

/-- The printed index maps of the last region, decided over its twenty points: the row-blocked windows sit at block
    `t`, every other window at block `0`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem lt20_2 (t : Fin cfg2.N) : t.val < 20 := lt_of_lt_of_eq t.isLt N_2

/-- Row `p` of point `t`'s block is row `5000·t + p` of the array. -/
def rowAt (t : Nat) (ht : t < 20) (p : Fin 5000) : Fin 100000 := ⟨t * 5000 + p.val, by have := p.isLt; omega⟩

/-- The message window's block at point `t`: rows `5000·t …` of the array the region found. -/
theorem iblk2_0_rows (c : Dev nD) (t : Fin cfg2.N) :
    RowsOf (rowAt t.val (lt20_2 t)) (iblk2 V c 0 t) (V c (Pipeline.arrRef spec2 0)) := by
  obtain ⟨e0, e1, -⟩ := idx2 t
  intro p k
  show V c (Pipeline.arrRef spec2 0) (((cfg2.win 0).blk t).view.emb (ix2 p k)) = V c (Pipeline.arrRef spec2 0) (ix2 (rowAt t.val (lt20_2 t) p) k)
  refine congrArg (V c (Pipeline.arrRef spec2 0)) ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem iblk2_1_whole (c : Dev nD) (t : Fin cfg2.N) : iblk2 V c 1 t = V c (Pipeline.arrRef spec2 1) := by
  obtain ⟨-, -, e0, e1, -⟩ := idx2 t
  funext j
  show V c (Pipeline.arrRef spec2 1) (((cfg2.win 1).blk t).view.emb j) = V c (Pipeline.arrRef spec2 1) j
  refine congrArg (V c (Pipeline.arrRef spec2 1)) ?_
  funext a; apply Fin.ext
  match a with
  | ⟨0, _⟩ => show win2_1.index t (0 : Fin 2) * 128 + 1 * (j 0).val = (j 0).val; omega
  | ⟨1, _⟩ => show win2_1.index t (1 : Fin 2) * 128 + 1 * (j 1).val = (j 1).val; omega

theorem iblk2_2_whole (c : Dev nD) (t : Fin cfg2.N) : iblk2 V c 2 t = V c (Pipeline.arrRef spec2 2) := by
  obtain ⟨-, -, -, -, e0, -⟩ := idx2 t
  funext j
  show V c (Pipeline.arrRef spec2 2) (((cfg2.win 2).blk t).view.emb j) = V c (Pipeline.arrRef spec2 2) j
  refine congrArg (V c (Pipeline.arrRef spec2 2)) ?_
  funext a; apply Fin.ext
  match a with
  | ⟨0, _⟩ => show win2_2.index t (0 : Fin 1) * 1 + 1 * (j 0).val = (j 0).val; omega

theorem iblk2_3_whole (c : Dev nD) (t : Fin cfg2.N) : iblk2 V c 3 t = V c (Pipeline.arrRef spec2 3) := by
  obtain ⟨-, -, -, -, -, e0, e1, -⟩ := idx2 t
  funext j
  show V c (Pipeline.arrRef spec2 3) (((cfg2.win 3).blk t).view.emb j) = V c (Pipeline.arrRef spec2 3) j
  refine congrArg (V c (Pipeline.arrRef spec2 3)) ?_
  funext a; apply Fin.ext
  match a with
  | ⟨0, _⟩ => show win2_3.index t (0 : Fin 2) * 128 + 1 * (j 0).val = (j 0).val; omega
  | ⟨1, _⟩ => show win2_3.index t (1 : Fin 2) * 64 + 1 * (j 1).val = (j 1).val; omega

theorem iblk2_4_whole (c : Dev nD) (t : Fin cfg2.N) : iblk2 V c 4 t = V c (Pipeline.arrRef spec2 4) := by
  obtain ⟨-, -, -, -, -, -, -, e0, -⟩ := idx2 t
  funext j
  show V c (Pipeline.arrRef spec2 4) (((cfg2.win 4).blk t).view.emb j) = V c (Pipeline.arrRef spec2 4) j
  refine congrArg (V c (Pipeline.arrRef spec2 4)) ?_
  funext a; apply Fin.ext
  match a with
  | ⟨0, _⟩ => show win2_4.index t (0 : Fin 1) * 64 + 1 * (j 0).val = (j 0).val; omega

/-- The last region's result as one function of the arrays it finds. -/
def out2 (c : Dev nD) : (⟨2, ![100000, 64]⟩ : Shape).Idx → EReal :=
  head (project (V c (Pipeline.arrRef spec2 0)) (V c (Pipeline.arrRef spec2 1))) (V c (Pipeline.arrRef spec2 2))
    (V c (Pipeline.arrRef spec2 3)) (shapeCast S1x64 (V c (Pipeline.arrRef spec2 4)) shapeCasts_S64_S1x64)

/-- What point `t` writes back is block `t` of that function. -/
theorem flushed2_5_eq (c : Dev nD) (t : Fin cfg2.N) :
    (dat2 V c).flushed 5 t = ((cfg2.win 5).blk t).view.read (Elt Ideal) (out2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128x64) hz2,
    View.ld_unit_zero (S := S1) hz1, View.ld_unit_zero (S := S64) hz1]
  rw [pay2_eq, iblk2_1_whole, iblk2_2_whole, iblk2_3_whole, iblk2_4_whole]
  obtain ⟨-, -, -, -, -, -, -, -, e0, e1⟩ := idx2 t
  funext j
  obtain ⟨p, q, rfl⟩ : ∃ (p : Fin 5000) (q : Fin 64), j = ix2 p q := ⟨j 0, j 1, eq_ix2 j⟩
  refine ((RowsOf.head ((iblk2_0_rows V c t).project _) _ _ _) p q).trans ?_
  show out2 V c (ix2 (rowAt t.val (lt20_2 t) p) q) = out2 V c (((cfg2.win 5).blk t).view.emb (ix2 p q))
  refine congrArg (out2 V c) ?_
  funext a; apply Fin.ext
  match a with
  | ⟨0, _⟩ => show t.val * 5000 + p.val = win2_5.index t (0 : Fin 2) * 5000 + 1 * p.val; omega
  | ⟨1, _⟩ => show q.val = win2_5.index t (1 : Fin 2) * 64 + 1 * q.val; omega

/-- An index of the result array is in point `t`'s block iff each coordinate is in the block's range. -/
theorem mem_blk2_5 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v53).slice (win2_5.rect t)).set ↔ _
  rw [View.set_slice_whole, Rect.mem_set_unit]
  exact Iff.rfl

/-- The twenty blocks cover the result array: row `r` is in block `r / 5000`. -/
theorem cover2_5_all (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨-, -, -, -, -, -, -, -, e0, e1⟩ := idx2 t
  refine ⟨t, flush2_5 t, ?_⟩
  rw [mem_blk2_5]
  have ht : t.val = (i 0).val / 5000 := rfl
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE RESULT ARRAY after the last region. -/
theorem final2_5 (c : Dev nD) : (dat2 V c).arrAt 5 cfg2.N = out2 V c :=
  (dat2 V c).arrAt_eq_of_cover 5 (out2 V c) (fun t _ => flushed2_5_eq V c t) (cover2_5_all)

end Region2

end Cert.KernelIdeal.Blocks

end
-- ==== Proof.KernelRegion0.lean ====
/-
  The idealized kernel's first region as whole-array functions.

  Point `t` of its twenty loads rows `5000·t …` of the aggregated input features and the whole of the first weight matrix,
  the two attention vectors, the attention bias and the rectifier's slope, and writes back rows `5000·t …` of TWO arrays: the
  projected features `X₀ = msg · W₀`, and the first hop's gated, rectified blend `gate X₀ X₀` (the blend of `X₀` with
  itself, as the source spells it). Both act row by row, so each array ends at that function of the whole arrays.
-/
import Idealize.ShloMosaic.Lib.Pipeline.Value
import proofs.«104476_j75213467287803_2_alg».proof.Proof.KernelRegion2

set_option maxRecDepth 16384

noncomputable section

namespace Cert.KernelIdeal.Blocks

open Cert.KernelIdeal Cert.KernelIdeal.Gen Cert.KernelIdeal.GenP Cert.Layers
open Idealize.ShloMosaic Idealize.ShloMosaic.TcCoe Idealize.ShloMosaic.ValueIdx Idealize.SL.Sem
open Idealize.ShloMosaic.Pipeline (Dat Cfg Window)

/-- The first region's first payload: the product with the first weight matrix. -/
theorem pay0_1_eq (x0 : Vec Ideal S5000x128 .f32) (x1 : Vec Ideal S128x128 .f32) :
    k0_pay1 (F := Ideal) x0 x1 = project x0 x1 := by
  unfold k0_pay1
  simp only [shapeCast_self]
  exact matmul_eq_project dot_S5000x128_S128x128_S5000x128_1_0_0_1_n_n rfl _ _

/-- Its second payload: the gated blend of the projected block with itself, rectified. -/
theorem pay0_2_eq (x0 : Vec Ideal S5000x128 .f32) (x1 : Vec Ideal S128x128 .f32) (x2 x3 : Vec Ideal S128 .f32)
    (x4 x5 : Vec Ideal S1 .f32) :
    k0_pay2 (F := Ideal) x0 x1 x2 x3 x4 x5 = gate (project x0 x1) (project x0 x1) x2 x3 x4 x5 := by
  unfold k0_pay2
  simp only [shapeCast_self, pay0_1_eq]
  exact kernel_gate (project x0 x1) (project x0 x1) x2 x3 x4 x5 shapeCasts_S128_S1x128 broadcasts_S1x128_S5000x128 reduces_S5000x128_S5000 (.inl rfl) rfl shapeCasts_S5000_S5000x1 shapeCasts_S1_S1x1 broadcasts_S1x1_S5000x1 broadcasts_S5000x1_S5000x128 broadcasts_S1x1_S5000x128

section Region0

variable (V : (c : Dev nD) → (b : Ref sig .tc) → Buf (Elt Ideal) ((c : Thread nD τ).loc b))

theorem lt20_0 (t : Fin cfg0.N) : t.val < 20 := lt_of_lt_of_eq t.isLt N_0

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_3 : ∀ t : Fin cfg0.N, win0_3.index t (0 : Fin 1) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)

/-- Window 0's block at point `t`: rows `5000·t …` of the array the region found. -/
theorem iblk0_0_rows (c : Dev nD) (t : Fin cfg0.N) :
    RowsOf (rowAt t.val (lt20_0 t)) (iblk0 V c 0 t) (V c (Pipeline.arrRef spec0 0)) := by
  obtain ⟨e0, e1⟩ := idx0_0 t
  intro p k
  show V c (Pipeline.arrRef spec0 0) (((cfg0.win 0).blk t).view.emb (ix2 p k))
    = V c (Pipeline.arrRef spec0 0) (ix2 (rowAt t.val (lt20_0 t) p) k)
  refine congrArg (V c (Pipeline.arrRef spec0 0)) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1's block is its whole array at every point. -/
theorem iblk0_1_whole (c : Dev nD) (t : Fin cfg0.N) : iblk0 V c 1 t = V c (Pipeline.arrRef spec0 1) := by
  obtain ⟨e0, e1⟩ := idx0_1 t
  funext j
  show V c (Pipeline.arrRef spec0 1) (((cfg0.win 1).blk t).view.emb j) = V c (Pipeline.arrRef spec0 1) j
  refine congrArg (V c (Pipeline.arrRef spec0 1)) ?_
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Window 2's block is its whole array at every point. -/
theorem iblk0_2_whole (c : Dev nD) (t : Fin cfg0.N) : iblk0 V c 2 t = V c (Pipeline.arrRef spec0 2) := by
  obtain e0 := idx0_2 t
  funext j
  show V c (Pipeline.arrRef spec0 2) (((cfg0.win 2).blk t).view.emb j) = V c (Pipeline.arrRef spec0 2) j
  refine congrArg (V c (Pipeline.arrRef spec0 2)) ?_
  funext a; apply Fin.ext
  match a with
  | ⟨0, _⟩ => show win0_2.index t (0 : Fin 1) * 128 + 1 * (j 0).val = (j 0).val; omega

/-- Window 3's block is its whole array at every point. -/
theorem iblk0_3_whole (c : Dev nD) (t : Fin cfg0.N) : iblk0 V c 3 t = V c (Pipeline.arrRef spec0 3) := by
  obtain e0 := idx0_3 t
  funext j
  show V c (Pipeline.arrRef spec0 3) (((cfg0.win 3).blk t).view.emb j) = V c (Pipeline.arrRef spec0 3) j
  refine congrArg (V c (Pipeline.arrRef spec0 3)) ?_
  funext a; apply Fin.ext
  match a with
  | ⟨0, _⟩ => show win0_3.index t (0 : Fin 1) * 128 + 1 * (j 0).val = (j 0).val; omega

/-- Window 4's block is its whole array at every point. -/
theorem iblk0_4_whole (c : Dev nD) (t : Fin cfg0.N) : iblk0 V c 4 t = V c (Pipeline.arrRef spec0 4) := by
  obtain e0 := idx0_4 t
  funext j
  show V c (Pipeline.arrRef spec0 4) (((cfg0.win 4).blk t).view.emb j) = V c (Pipeline.arrRef spec0 4) j
  refine congrArg (V c (Pipeline.arrRef spec0 4)) ?_
  funext a; apply Fin.ext
  match a with
  | ⟨0, _⟩ => show win0_4.index t (0 : Fin 1) * 1 + 1 * (j 0).val = (j 0).val; omega

/-- Window 5's block is its whole array at every point. -/
theorem iblk0_5_whole (c : Dev nD) (t : Fin cfg0.N) : iblk0 V c 5 t = V c (Pipeline.arrRef spec0 5) := by
  obtain e0 := idx0_5 t
  funext j
  show V c (Pipeline.arrRef spec0 5) (((cfg0.win 5).blk t).view.emb j) = V c (Pipeline.arrRef spec0 5) j
  refine congrArg (V c (Pipeline.arrRef spec0 5)) ?_
  funext a; apply Fin.ext
  match a with
  | ⟨0, _⟩ => show win0_5.index t (0 : Fin 1) * 1 + 1 * (j 0).val = (j 0).val; omega

/-- The projected features, as a function of the arrays the region finds. -/
def outX0 (c : Dev nD) : (⟨2, ![100000, 128]⟩ : Shape).Idx → EReal :=
  project (V c (Pipeline.arrRef spec0 0)) (V c (Pipeline.arrRef spec0 1))

/-- The first hop's gated blend, as a function of the arrays the region finds. -/
def outG1 (c : Dev nD) : (⟨2, ![100000, 128]⟩ : Shape).Idx → EReal :=
  gate (outX0 V c) (outX0 V c) (V c (Pipeline.arrRef spec0 2)) (V c (Pipeline.arrRef spec0 3))
    (V c (Pipeline.arrRef spec0 4)) (V c (Pipeline.arrRef spec0 5))

/-- What point `t` writes back to output window 6 is block `t` of `outX0`. -/
theorem flushed0_6_eq (c : Dev nD) (t : Fin cfg0.N) :
    (dat0 V c).flushed 6 t = ((cfg0.win 6).blk t).view.read (Elt Ideal) (outX0 V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2,
    View.ld_unit_zero (S := S1) hz1, View.ld_unit_zero (S := S128) hz1]
  rw [pay0_1_eq, iblk0_1_whole]
  obtain ⟨e0, e1⟩ := idx0_6 t
  funext j
  obtain ⟨p, q, rfl⟩ : ∃ (p : Fin 5000) (q : Fin 128), j = ix2 p q := ⟨j 0, j 1, eq_ix2 j⟩
  refine (((iblk0_0_rows V c t).project _) p q).trans ?_
  show outX0 V c (ix2 (rowAt t.val (lt20_0 t) p) q) = outX0 V c (((cfg0.win 6).blk t).view.emb (ix2 p q))
  refine congrArg (outX0 V c) ?_
  funext a; apply Fin.ext
  match a with
  | ⟨0, _⟩ => show t.val * 5000 + p.val = win0_6.index t (0 : Fin 2) * 5000 + 1 * p.val; omega
  | ⟨1, _⟩ => show q.val = win0_6.index t (1 : Fin 2) * 128 + 1 * q.val; omega

/-- An index of the array is in point `t`'s block iff each coordinate is in the block's range. -/
theorem mem_blk0_6 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v19_0).slice (win0_6.rect t)).set ↔ _
  rw [View.set_slice_whole, Rect.mem_set_unit]
  exact Iff.rfl

/-- The twenty blocks cover the array: row `r` is in block `r / 5000`. -/
theorem cover0_6_all (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e0, e1⟩ := idx0_6 t
  refine ⟨t, flush0_6 t, ?_⟩
  rw [mem_blk0_6]
  have ht : t.val = (i 0).val / 5000 := rfl
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE ARRAY of output window 6 after the region. -/
theorem final0_6 (c : Dev nD) : (dat0 V c).arrAt 6 cfg0.N = outX0 V c :=
  (dat0 V c).arrAt_eq_of_cover 6 (outX0 V c) (fun t _ => flushed0_6_eq V c t) cover0_6_all

/-- What point `t` writes back to output window 7 is block `t` of `outG1`. -/
theorem flushed0_7_eq (c : Dev nD) (t : Fin cfg0.N) :
    (dat0 V c).flushed 7 t = ((cfg0.win 7).blk t).view.read (Elt Ideal) (outG1 V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S128x128) hz2,
    View.ld_unit_zero (S := S1) hz1, View.ld_unit_zero (S := S128) hz1]
  rw [pay0_2_eq, iblk0_1_whole, iblk0_2_whole, iblk0_3_whole, iblk0_4_whole, iblk0_5_whole]
  obtain ⟨e0, e1⟩ := idx0_7 t
  funext j
  obtain ⟨p, q, rfl⟩ : ∃ (p : Fin 5000) (q : Fin 128), j = ix2 p q := ⟨j 0, j 1, eq_ix2 j⟩
  refine ((RowsOf.gate ((iblk0_0_rows V c t).project _) ((iblk0_0_rows V c t).project _) _ _ _ _) p q).trans ?_
  show outG1 V c (ix2 (rowAt t.val (lt20_0 t) p) q) = outG1 V c (((cfg0.win 7).blk t).view.emb (ix2 p q))
  refine congrArg (outG1 V c) ?_
  funext a; apply Fin.ext
  match a with
  | ⟨0, _⟩ => show t.val * 5000 + p.val = win0_7.index t (0 : Fin 2) * 5000 + 1 * p.val; omega
  | ⟨1, _⟩ => show q.val = win0_7.index t (1 : Fin 2) * 128 + 1 * q.val; omega

/-- An index of the array is in point `t`'s block iff each coordinate is in the block's range. -/
theorem mem_blk0_7 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v19_1).slice (win0_7.rect t)).set ↔ _
  rw [View.set_slice_whole, Rect.mem_set_unit]
  exact Iff.rfl

/-- The twenty blocks cover the array: row `r` is in block `r / 5000`. -/
theorem cover0_7_all (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e0, e1⟩ := idx0_7 t
  refine ⟨t, flush0_7 t, ?_⟩
  rw [mem_blk0_7]
  have ht : t.val = (i 0).val / 5000 := rfl
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE ARRAY of output window 7 after the region. -/
theorem final0_7 (c : Dev nD) : (dat0 V c).arrAt 7 cfg0.N = outG1 V c :=
  (dat0 V c).arrAt_eq_of_cover 7 (outG1 V c) (fun t _ => flushed0_7_eq V c t) cover0_7_all

end Region0

end Cert.KernelIdeal.Blocks

end
-- ==== Proof.KernelRegion1.lean ====
/-
  The idealized kernel's second region as one whole-array function.

  Point `t` of its twenty loads rows `5000·t …` of the aggregated first-hop features and of the first region's projected
  features `X₀`, and the whole of the second weight matrix, the attention vectors, the bias and the slope; it writes back rows
  `5000·t …` of the second hop's gated, rectified blend `gate (msg · Wh₀) X₀`. The projection and the blend act row by row, so the
  array ends at that function of the whole arrays.
-/
import Idealize.ShloMosaic.Lib.Pipeline.Value
import proofs.«104476_j75213467287803_2_alg».proof.Proof.KernelRegion2

set_option maxRecDepth 16384

noncomputable section

namespace Cert.KernelIdeal.Blocks

open Cert.KernelIdeal Cert.KernelIdeal.Gen Cert.KernelIdeal.GenP Cert.Layers
open Idealize.ShloMosaic Idealize.ShloMosaic.TcCoe Idealize.ShloMosaic.ValueIdx Idealize.SL.Sem
open Idealize.ShloMosaic.Pipeline (Dat Cfg Window)

/-- The second region's payload: the gated blend of the projected block with the first hop's block, rectified. -/
theorem pay1_1_eq (x0 : Vec Ideal S5000x128 .f32) (x1 : Vec Ideal S128x128 .f32) (x2 : Vec Ideal S5000x128 .f32)
    (x3 x4 : Vec Ideal S128 .f32) (x5 x6 : Vec Ideal S1 .f32) :
    k1_pay1 (F := Ideal) x0 x1 x2 x3 x4 x5 x6 = gate (project x0 x1) x2 x3 x4 x5 x6 := by
  unfold k1_pay1
  simp only [shapeCast_self, matmul_eq_project dot_S5000x128_S128x128_S5000x128_1_0_0_1_n_n rfl]
  exact kernel_gate (project x0 x1) x2 x3 x4 x5 x6 shapeCasts_S128_S1x128 broadcasts_S1x128_S5000x128 reduces_S5000x128_S5000 (.inl rfl) rfl shapeCasts_S5000_S5000x1 shapeCasts_S1_S1x1 broadcasts_S1x1_S5000x1 broadcasts_S5000x1_S5000x128 broadcasts_S1x1_S5000x128

section Region1

variable (V : (c : Dev nD) → (b : Ref sig .tc) → Buf (Elt Ideal) ((c : Thread nD τ).loc b))

theorem lt20_1 (t : Fin cfg1.N) : t.val < 20 := lt_of_lt_of_eq t.isLt N_1

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 1) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 1) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-- Window 0's block at point `t`: rows `5000·t …` of the array the region found. -/
theorem iblk1_0_rows (c : Dev nD) (t : Fin cfg1.N) :
    RowsOf (rowAt t.val (lt20_1 t)) (iblk1 V c 0 t) (V c (Pipeline.arrRef spec1 0)) := by
  obtain ⟨e0, e1⟩ := idx1_0 t
  intro p k
  show V c (Pipeline.arrRef spec1 0) (((cfg1.win 0).blk t).view.emb (ix2 p k))
    = V c (Pipeline.arrRef spec1 0) (ix2 (rowAt t.val (lt20_1 t) p) k)
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1's block is its whole array at every point. -/
theorem iblk1_1_whole (c : Dev nD) (t : Fin cfg1.N) : iblk1 V c 1 t = V c (Pipeline.arrRef spec1 1) := by
  obtain ⟨e0, e1⟩ := idx1_1 t
  funext j
  show V c (Pipeline.arrRef spec1 1) (((cfg1.win 1).blk t).view.emb j) = V c (Pipeline.arrRef spec1 1) j
  refine congrArg (V c (Pipeline.arrRef spec1 1)) ?_
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- Window 2's block at point `t`: rows `5000·t …` of the array the region found. -/
theorem iblk1_2_rows (c : Dev nD) (t : Fin cfg1.N) :
    RowsOf (rowAt t.val (lt20_1 t)) (iblk1 V c 2 t) (V c (Pipeline.arrRef spec1 2)) := by
  obtain ⟨e0, e1⟩ := idx1_2 t
  intro p k
  show V c (Pipeline.arrRef spec1 2) (((cfg1.win 2).blk t).view.emb (ix2 p k))
    = V c (Pipeline.arrRef spec1 2) (ix2 (rowAt t.val (lt20_1 t) p) k)
  refine congrArg (V c (Pipeline.arrRef spec1 2)) ?_
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

/-- Window 3's block is its whole array at every point. -/
theorem iblk1_3_whole (c : Dev nD) (t : Fin cfg1.N) : iblk1 V c 3 t = V c (Pipeline.arrRef spec1 3) := by
  obtain e0 := idx1_3 t
  funext j
  show V c (Pipeline.arrRef spec1 3) (((cfg1.win 3).blk t).view.emb j) = V c (Pipeline.arrRef spec1 3) j
  refine congrArg (V c (Pipeline.arrRef spec1 3)) ?_
  funext a; apply Fin.ext
  match a with
  | ⟨0, _⟩ => show win1_3.index t (0 : Fin 1) * 128 + 1 * (j 0).val = (j 0).val; omega

/-- Window 4's block is its whole array at every point. -/
theorem iblk1_4_whole (c : Dev nD) (t : Fin cfg1.N) : iblk1 V c 4 t = V c (Pipeline.arrRef spec1 4) := by
  obtain e0 := idx1_4 t
  funext j
  show V c (Pipeline.arrRef spec1 4) (((cfg1.win 4).blk t).view.emb j) = V c (Pipeline.arrRef spec1 4) j
  refine congrArg (V c (Pipeline.arrRef spec1 4)) ?_
  funext a; apply Fin.ext
  match a with
  | ⟨0, _⟩ => show win1_4.index t (0 : Fin 1) * 128 + 1 * (j 0).val = (j 0).val; omega

/-- Window 5's block is its whole array at every point. -/
theorem iblk1_5_whole (c : Dev nD) (t : Fin cfg1.N) : iblk1 V c 5 t = V c (Pipeline.arrRef spec1 5) := by
  obtain e0 := idx1_5 t
  funext j
  show V c (Pipeline.arrRef spec1 5) (((cfg1.win 5).blk t).view.emb j) = V c (Pipeline.arrRef spec1 5) j
  refine congrArg (V c (Pipeline.arrRef spec1 5)) ?_
  funext a; apply Fin.ext
  match a with
  | ⟨0, _⟩ => show win1_5.index t (0 : Fin 1) * 1 + 1 * (j 0).val = (j 0).val; omega

/-- Window 6's block is its whole array at every point. -/
theorem iblk1_6_whole (c : Dev nD) (t : Fin cfg1.N) : iblk1 V c 6 t = V c (Pipeline.arrRef spec1 6) := by
  obtain e0 := idx1_6 t
  funext j
  show V c (Pipeline.arrRef spec1 6) (((cfg1.win 6).blk t).view.emb j) = V c (Pipeline.arrRef spec1 6) j
  refine congrArg (V c (Pipeline.arrRef spec1 6)) ?_
  funext a; apply Fin.ext
  match a with
  | ⟨0, _⟩ => show win1_6.index t (0 : Fin 1) * 1 + 1 * (j 0).val = (j 0).val; omega

/-- The second hop's gated blend, as a function of the arrays the region finds. -/
def outG2 (c : Dev nD) : (⟨2, ![100000, 128]⟩ : Shape).Idx → EReal :=
  gate (project (V c (Pipeline.arrRef spec1 0)) (V c (Pipeline.arrRef spec1 1))) (V c (Pipeline.arrRef spec1 2))
    (V c (Pipeline.arrRef spec1 3)) (V c (Pipeline.arrRef spec1 4)) (V c (Pipeline.arrRef spec1 5)) (V c (Pipeline.arrRef spec1 6))

/-- What point `t` writes back to output window 7 is block `t` of `outG2`. -/
theorem flushed1_7_eq (c : Dev nD) (t : Fin cfg1.N) :
    (dat1 V c).flushed 7 t = ((cfg1.win 7).blk t).view.read (Elt Ideal) (outG2 V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2,
    View.ld_unit_zero (S := S1) hz1, View.ld_unit_zero (S := S128) hz1]
  rw [pay1_1_eq, iblk1_1_whole, iblk1_3_whole, iblk1_4_whole, iblk1_5_whole, iblk1_6_whole]
  obtain ⟨e0, e1⟩ := idx1_7 t
  funext j
  obtain ⟨p, q, rfl⟩ : ∃ (p : Fin 5000) (q : Fin 128), j = ix2 p q := ⟨j 0, j 1, eq_ix2 j⟩
  refine ((RowsOf.gate ((iblk1_0_rows V c t).project _) (iblk1_2_rows V c t) _ _ _ _) p q).trans ?_
  show outG2 V c (ix2 (rowAt t.val (lt20_1 t) p) q) = outG2 V c (((cfg1.win 7).blk t).view.emb (ix2 p q))
  refine congrArg (outG2 V c) ?_
  funext a; apply Fin.ext
  match a with
  | ⟨0, _⟩ => show t.val * 5000 + p.val = win1_7.index t (0 : Fin 2) * 5000 + 1 * p.val; omega
  | ⟨1, _⟩ => show q.val = win1_7.index t (1 : Fin 2) * 128 + 1 * q.val; omega

/-- An index of the array is in point `t`'s block iff each coordinate is in the block's range. -/
theorem mem_blk1_7 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v36).slice (win1_7.rect t)).set ↔ _
  rw [View.set_slice_whole, Rect.mem_set_unit]
  exact Iff.rfl

/-- The twenty blocks cover the array: row `r` is in block `r / 5000`. -/
theorem cover1_7_all (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨e0, e1⟩ := idx1_7 t
  refine ⟨t, flush1_7 t, ?_⟩
  rw [mem_blk1_7]
  have ht : t.val = (i 0).val / 5000 := rfl
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE ARRAY of output window 7 after the region. -/
theorem final1_7 (c : Dev nD) : (dat1 V c).arrAt 7 cfg1.N = outG2 V c :=
  (dat1 V c).arrAt_eq_of_cover 7 (outG2 V c) (fun t _ => flushed1_7_eq V c t) cover1_7_all

end Region1

end Cert.KernelIdeal.Blocks

end
-- ==== Proof.KernelRun.lean ====
/-
  The idealized kernel's run with every buffer NAMED at its end.

  The kernel's @main is three gridded regions among three stretches of host operations. Its generated frame certificate
  folds the TensorCore's buffer contents through the six segments (`W0` at launch … `W6` at the return: a stretch's
  operations applied, a region's arrays at what its write-backs leave) and proves that every weakly fair execution ends
  with EVERY unscoped buffer at `W6`; it then keeps only the argument arrays. Here the same run is stated with that
  whole reading kept, so that the result array can be read at `W6` too.
-/
import proofs.«104476_j75213467287803_2_alg».proof.Proof.KernelIdealFrameP

set_option maxRecDepth 16384

noncomputable section

namespace Cert.KernelIdeal.RunAll

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with every unscoped TensorCore buffer
    at the last boundary's contents `W6`: the launch over the six segments, the last thread state read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- So a reference `b` of the TensorCore that no region scopes ends at `W6`'s value. -/
theorem run_ref : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  (θ_run defs _ _).mono (fun r h c b hb => h c _ (mem_uc b hb)) (run_all m ρ)

end Cert.KernelIdeal.RunAll

end
-- ==== Proof.NetSpec.lean ====
/-
  The network both programs compute, as one function of the argument arrays over the extended reals.

  * `spmm` — the sparse aggregation `A · h` of a feature array `h` along the edge list (target rows `er`, source rows `ec`,
    edge values `ev`): gather the source rows (a negative index wrapped by the row count), scale each by its edge's value,
    scatter-add into the target rows of a zero array. Both programs spell it with the SAME host operations, so it is kept
    here as that composition and never opened: the certificate only uses that equal operands give equal results.
  * `net` — three hops: `X₀ = spmm(x)·W₀`; `G₁ = gate X₀ X₀`; `X₁ = spmm(G₁)·Wh₀`; `G₂ = gate X₁ X₀`;
    `X₂ = spmm(G₂)·Wh₁`; the result is `head X₂` (rectifier, class projection, bias, row-wise log-softmax). The attention
    gate blends the current features with the first hop's, `X₀`.
-/
import Idealize.ShloMosaic.PureOps.Ideal
import Idealize.ShloMosaic.Lib.ValueIdx
import proofs.«104476_j75213467287803_2_alg».proof.Proof.LibAttnGate
import proofs.«104476_j75213467287803_2_alg».proof.Proof.LibHead

noncomputable section

namespace Cert.Gnn

open Idealize.ShloMosaic Idealize.ShloMosaic.ValueIdx Cert.Layers

variable {N E D C : Nat}

/-- The sparse aggregation, in the host's operations. `nBits` is the row count as the 32-bit word the index wrap adds. -/
def spmm (gd : GatherDims ⟨2, ![N, D]⟩ ⟨2, ![E, 1]⟩ ⟨2, ![E, D]⟩) (sd : ScatterDims ⟨2, ![N, D]⟩ ⟨2, ![E, 1]⟩ ⟨2, ![E, D]⟩)
    (h0 : (⟨0, ![]⟩ : Shape).BroadcastsInDim ⟨2, ![N, D]⟩ ![]) (hz : (⟨0, ![]⟩ : Shape).BroadcastsInDim ⟨1, ![E]⟩ ![])
    (hi : (⟨1, ![E]⟩ : Shape).BroadcastsInDim ⟨2, ![E, 1]⟩ ![0]) (hv : (⟨2, ![E, 1]⟩ : Shape).BroadcastsInDim ⟨2, ![E, D]⟩ ![0, 1])
    (nBits : BitVec 32) (er ec : IVec ⟨1, ![E]⟩ 32) (ev : (⟨1, ![E]⟩ : Shape).Idx → EReal)
    (h : (⟨2, ![N, D]⟩ : Shape).Idx → EReal) : (⟨2, ![N, D]⟩ : Shape).Idx → EReal :=
  Host.scatterAdd (F := Ideal) (φ := .f32) sd
    (broadcastInDim ⟨2, ![N, D]⟩ ![] h0 (constant (F := Ideal) ⟨0, ![]⟩ .f32 0x00000000#32))
    (broadcastInDim ⟨2, ![E, 1]⟩ ![0] hi er)
    (mulf (F := Ideal) (φ := .f32) (broadcastInDim ⟨2, ![E, D]⟩ ![0, 1] hv (broadcastInDim ⟨2, ![E, 1]⟩ ![0] hi ev))
      (Host.gather gd h (broadcastInDim ⟨2, ![E, 1]⟩ ![0] hi
        (select (cmpi .slt ec (broadcastInDim ⟨1, ![E]⟩ ![] hz (constantI ⟨0, ![]⟩ 32 0#32)))
          (addi ec (broadcastInDim ⟨1, ![E]⟩ ![] hz (constantI ⟨0, ![]⟩ 32 nBits))) ec))))

/-- The network: `A` is the aggregation operator (`spmm` at the edge list). -/
def net (A : ((⟨2, ![N, D]⟩ : Shape).Idx → EReal) → (⟨2, ![N, D]⟩ : Shape).Idx → EReal)
    (x : (⟨2, ![N, D]⟩ : Shape).Idx → EReal) (w0 wh0 wh1 : (⟨2, ![D, D]⟩ : Shape).Idx → EReal)
    (w1 w2 : (⟨1, ![D]⟩ : Shape).Idx → EReal) (b s : (⟨1, ![1]⟩ : Shape).Idx → EReal)
    (ow : (⟨2, ![D, C]⟩ : Shape).Idx → EReal) (ob : (⟨2, ![1, C]⟩ : Shape).Idx → EReal) : (⟨2, ![N, C]⟩ : Shape).Idx → EReal :=
  head (project (A (gate (project (A (gate (project (A x) w0) (project (A x) w0) w1 w2 b s)) wh0) (project (A x) w0) w1 w2 b s)) wh1)
    s ow ob

end Cert.Gnn

end
-- ==== Proof.KernelStages.lean ====
/-
  The idealized kernel's buffer contents at each boundary of its six segments, as functions of the argument arrays.

  @main alternates a stretch of host operations and a gridded region three times. The stretches compute the sparse
  aggregation of the current features (and, once, the two halves of the attention weight column and the slices of the hop
  weights); each region's result array is, by the region modules, one whole-array function of the arrays it finds. Walking the
  fold of the buffer contents from the launch memory through the six segments gives the result array as `net` of the
  argument arrays. Every buffer a later segment reads is followed back to where it was written: an argument is never written,
  a region leaves its input arrays as it found them, a stretch leaves every buffer that is not one of its results.
-/
import Idealize.ShloMosaic.Lib.Pipeline.Value
import Idealize.ShloMosaic.Lib.StableHlo.Run
import proofs.«104476_j75213467287803_2_alg».proof.Proof.KernelRegion0
import proofs.«104476_j75213467287803_2_alg».proof.Proof.KernelRegion1
import proofs.«104476_j75213467287803_2_alg».proof.Proof.KernelRegion2
import proofs.«104476_j75213467287803_2_alg».proof.Proof.KernelRun
import proofs.«104476_j75213467287803_2_alg».proof.Proof.NetSpec

set_option maxRecDepth 16384

noncomputable section

namespace Cert.KernelIdeal.Stages

open Cert.KernelIdeal Cert.KernelIdeal.Gen Cert.KernelIdeal.GenP Cert.KernelIdeal.Blocks Cert.Layers Cert.Gnn
open Idealize.ShloMosaic Idealize.ShloMosaic.TcCoe Idealize.ShloMosaic.ValueIdx Idealize.SL.Sem
open Idealize.ShloMosaic.Pipeline (Dat Cfg Window)

/-- No operation of a literal stretch writes the buffer: each operation's one result buffer is another reference. -/
macro "not_written" : tactic => `(tactic| (
  refine List.forall_iff_forall_mem.mp ?_
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-- The aggregation along the kernel's edge list (its arguments 1, 2, 3). -/
abbrev aggK : ((⟨2, ![100000, 128]⟩ : Shape).Idx → EReal) → (⟨2, ![100000, 128]⟩ : Shape).Idx → EReal :=
  spmm gather_S100000x128_S1600000x1_S1600000x128_1_0_n_n_0_1_1128 scatter_S100000x128_S1600000x1_S1600000x128_1_0_0_1
    bcast_S_S100000x128 bcast_S_S1600000 bcast_S1600000_S1600000x1_0 bcast_S1600000x1_S1600000x128_0_1 100000#32
    (m ((c : Thread nD τ).loc main_arg1)) (m ((c : Thread nD τ).loc main_arg2)) (m ((c : Thread nD τ).loc main_arg3))

/-- The first half of the attention weight column, as the kernel's host slices it. -/
abbrev w1K : (⟨1, ![128]⟩ : Shape).Idx → EReal :=
  shapeCast S128 (extractStridedSlice S128x1 ![0, 0] (m ((c : Thread nD τ).loc main_arg6)) slices_S256x1_S128x1_0_0) shapeCasts_S128x1_S128
/-- Its second half. -/
abbrev w2K : (⟨1, ![128]⟩ : Shape).Idx → EReal :=
  shapeCast S128 (extractStridedSlice S128x1 ![128, 0] (m ((c : Thread nD τ).loc main_arg6)) slices_S256x1_S128x1_128_0) shapeCasts_S128x1_S128
/-- The hop weights' first matrix. -/
abbrev wh0K : (⟨2, ![128, 128]⟩ : Shape).Idx → EReal :=
  shapeCast S128x128 (extractStridedSlice S1x128x128 ![0, 0, 0] (m ((c : Thread nD τ).loc main_arg5)) slices_S2x128x128_S1x128x128_0_0_0) shapeCasts_S1x128x128_S128x128
/-- The hop weights' second matrix. -/
abbrev wh1K : (⟨2, ![128, 128]⟩ : Shape).Idx → EReal :=
  shapeCast S128x128 (extractStridedSlice S1x128x128 ![1, 0, 0] (m ((c : Thread nD τ).loc main_arg5)) slices_S2x128x128_S1x128x128_1_0_0) shapeCasts_S1x128x128_S128x128

/-! ## After the first stretch -/

theorem W1_arg4 : W1 m ρ c (Proc.devRef .tc main_arg4) = m ((c : Thread nD τ).loc main_arg4) :=
  StableHlo.after_of_forall_not_mem (b := Proc.devRef .tc main_arg4) _ _ (by not_written)
theorem W1_arg7 : W1 m ρ c (Proc.devRef .tc main_arg7) = m ((c : Thread nD τ).loc main_arg7) :=
  StableHlo.after_of_forall_not_mem (b := Proc.devRef .tc main_arg7) _ _ (by not_written)
theorem W1_arg10 : W1 m ρ c (Proc.devRef .tc main_arg10) = m ((c : Thread nD τ).loc main_arg10) :=
  StableHlo.after_of_forall_not_mem (b := Proc.devRef .tc main_arg10) _ _ (by not_written)
theorem W1_arg1 : W1 m ρ c (Proc.devRef .tc main_arg1) = m ((c : Thread nD τ).loc main_arg1) :=
  StableHlo.after_of_forall_not_mem (b := Proc.devRef .tc main_arg1) _ _ (by not_written)
theorem W1_arg2 : W1 m ρ c (Proc.devRef .tc main_arg2) = m ((c : Thread nD τ).loc main_arg2) :=
  StableHlo.after_of_forall_not_mem (b := Proc.devRef .tc main_arg2) _ _ (by not_written)
theorem W1_arg3 : W1 m ρ c (Proc.devRef .tc main_arg3) = m ((c : Thread nD τ).loc main_arg3) :=
  StableHlo.after_of_forall_not_mem (b := Proc.devRef .tc main_arg3) _ _ (by not_written)
theorem W1_arg5 : W1 m ρ c (Proc.devRef .tc main_arg5) = m ((c : Thread nD τ).loc main_arg5) :=
  StableHlo.after_of_forall_not_mem (b := Proc.devRef .tc main_arg5) _ _ (by not_written)
theorem W1_arg8 : W1 m ρ c (Proc.devRef .tc main_arg8) = m ((c : Thread nD τ).loc main_arg8) :=
  StableHlo.after_of_forall_not_mem (b := Proc.devRef .tc main_arg8) _ _ (by not_written)
theorem W1_arg9 : W1 m ρ c (Proc.devRef .tc main_arg9) = m ((c : Thread nD τ).loc main_arg9) :=
  StableHlo.after_of_forall_not_mem (b := Proc.devRef .tc main_arg9) _ _ (by not_written)

/-- The first stretch aggregates the input features (their change of float format is the identity here). -/
theorem W1_v18 : W1 m ρ c (Proc.devRef .tc main_v18) = aggK m c (m ((c : Thread nD τ).loc main_arg0)) := by
  show StableHlo.after hostOps0 (W0 m ρ c) (Proc.devRef .tc main_v18) = _
  after_results_simp
  rfl
theorem W1_v1 : W1 m ρ c (Proc.devRef .tc main_v1) = w1K m c := by
  show StableHlo.after hostOps0 (W0 m ρ c) (Proc.devRef .tc main_v1) = _
  after_results_simp
  rfl
theorem W1_v3 : W1 m ρ c (Proc.devRef .tc main_v3) = w2K m c := by
  show StableHlo.after hostOps0 (W0 m ρ c) (Proc.devRef .tc main_v3) = _
  after_results_simp
  rfl

/-! ## The first region -/

/-- The projected input features `X₀`. -/
abbrev X0 : (⟨2, ![100000, 128]⟩ : Shape).Idx → EReal := project (aggK m c (m ((c : Thread nD τ).loc main_arg0))) (m ((c : Thread nD τ).loc main_arg4))
/-- The first hop's gated blend. -/
abbrev G1 : (⟨2, ![100000, 128]⟩ : Shape).Idx → EReal :=
  gate (X0 m c) (X0 m c) (w1K m c) (w2K m c) (m ((c : Thread nD τ).loc main_arg7)) (m ((c : Thread nD τ).loc main_arg10))

theorem V1_0 : V1 m ρ c (Pipeline.arrRef spec0 0) = aggK m c (m ((c : Thread nD τ).loc main_arg0)) := W1_v18 m ρ c
theorem V1_1 : V1 m ρ c (Pipeline.arrRef spec0 1) = m ((c : Thread nD τ).loc main_arg4) := W1_arg4 m ρ c
theorem V1_2 : V1 m ρ c (Pipeline.arrRef spec0 2) = w1K m c := W1_v1 m ρ c
theorem V1_3 : V1 m ρ c (Pipeline.arrRef spec0 3) = w2K m c := W1_v3 m ρ c
theorem V1_4 : V1 m ρ c (Pipeline.arrRef spec0 4) = m ((c : Thread nD τ).loc main_arg7) := W1_arg7 m ρ c
theorem V1_5 : V1 m ρ c (Pipeline.arrRef spec0 5) = m ((c : Thread nD τ).loc main_arg10) := W1_arg10 m ρ c

theorem outX0_eq : outX0 (V1 m ρ) c = X0 m c := by
  unfold outX0
  rw [V1_0, V1_1]
theorem outG1_eq : outG1 (V1 m ρ) c = G1 m c := by
  unfold outG1
  rw [outX0_eq, V1_2, V1_3, V1_4, V1_5]

theorem W2_v19_0 : W2 m ρ c (Proc.devRef .tc main_v19_0) = X0 m c :=
  (W2_arr m ρ c 6).trans ((final0_6 (V1 m ρ) c).trans (outX0_eq m ρ c))
theorem W2_v19_1 : W2 m ρ c (Proc.devRef .tc main_v19_1) = G1 m c :=
  (W2_arr m ρ c 7).trans ((final0_7 (V1 m ρ) c).trans (outG1_eq m ρ c))

/-- The region leaves each of its input arrays as it found it. -/
theorem W2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

theorem W2_v1 : W2 m ρ c (Proc.devRef .tc main_v1) = w1K m c := (W2_in m ρ c 2 rfl).trans (W1_v1 m ρ c)
theorem W2_v3 : W2 m ρ c (Proc.devRef .tc main_v3) = w2K m c := (W2_in m ρ c 3 rfl).trans (W1_v3 m ρ c)
theorem W2_arg7 : W2 m ρ c (Proc.devRef .tc main_arg7) = m ((c : Thread nD τ).loc main_arg7) := (W2_in m ρ c 4 rfl).trans (W1_arg7 m ρ c)
theorem W2_arg10 : W2 m ρ c (Proc.devRef .tc main_arg10) = m ((c : Thread nD τ).loc main_arg10) := (W2_in m ρ c 5 rfl).trans (W1_arg10 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg5 : W2 m ρ c (Proc.devRef .tc main_arg5) = m ((c : Thread nD τ).loc main_arg5) :=
  (W2_of_ne m ρ c main_arg5 (by decide)).trans (W1_arg5 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)

/-! ## After the second stretch -/

theorem W3_v33 : W3 m ρ c (Proc.devRef .tc main_v33) = aggK m c (G1 m c) := by
  have h : W3 m ρ c (Proc.devRef .tc main_v33) = spmm gather_S100000x128_S1600000x1_S1600000x128_1_0_n_n_0_1_1128 scatter_S100000x128_S1600000x1_S1600000x128_1_0_0_1
      bcast_S_S100000x128 bcast_S_S1600000 bcast_S1600000_S1600000x1_0 bcast_S1600000x1_S1600000x128_0_1 100000#32
      (W2 m ρ c (Proc.devRef .tc main_arg1)) (W2 m ρ c (Proc.devRef .tc main_arg2)) (W2 m ρ c (Proc.devRef .tc main_arg3))
      (W2 m ρ c (Proc.devRef .tc main_v19_1)) := by
    show StableHlo.after hostOps1 (W2 m ρ c) (Proc.devRef .tc main_v33) = _
    after_results_simp
    rfl
  rw [h, W2_v19_1, W2_arg1, W2_arg2, W2_arg3]
theorem W3_v35 : W3 m ρ c (Proc.devRef .tc main_v35) = wh0K m c := by
  show StableHlo.after hostOps1 (W2 m ρ c) (Proc.devRef .tc main_v35) = _
  after_results_simp
  rw [W2_arg5]
  rfl
theorem W3_v19_0 : W3 m ρ c (Proc.devRef .tc main_v19_0) = X0 m c :=
  (StableHlo.after_of_forall_not_mem (b := (Proc.devRef .tc main_v19_0)) _ _ (by not_written)).trans (W2_v19_0 m ρ c)
theorem W3_v1 : W3 m ρ c (Proc.devRef .tc main_v1) = w1K m c :=
  (StableHlo.after_of_forall_not_mem (b := (Proc.devRef .tc main_v1)) _ _ (by not_written)).trans (W2_v1 m ρ c)
theorem W3_v3 : W3 m ρ c (Proc.devRef .tc main_v3) = w2K m c :=
  (StableHlo.after_of_forall_not_mem (b := (Proc.devRef .tc main_v3)) _ _ (by not_written)).trans (W2_v3 m ρ c)
theorem W3_arg7 : W3 m ρ c (Proc.devRef .tc main_arg7) = m ((c : Thread nD τ).loc main_arg7) :=
  (StableHlo.after_of_forall_not_mem (b := (Proc.devRef .tc main_arg7)) _ _ (by not_written)).trans (W2_arg7 m ρ c)
theorem W3_arg10 : W3 m ρ c (Proc.devRef .tc main_arg10) = m ((c : Thread nD τ).loc main_arg10) :=
  (StableHlo.after_of_forall_not_mem (b := (Proc.devRef .tc main_arg10)) _ _ (by not_written)).trans (W2_arg10 m ρ c)
theorem W3_arg1 : W3 m ρ c (Proc.devRef .tc main_arg1) = m ((c : Thread nD τ).loc main_arg1) :=
  (StableHlo.after_of_forall_not_mem (b := (Proc.devRef .tc main_arg1)) _ _ (by not_written)).trans (W2_arg1 m ρ c)
theorem W3_arg2 : W3 m ρ c (Proc.devRef .tc main_arg2) = m ((c : Thread nD τ).loc main_arg2) :=
  (StableHlo.after_of_forall_not_mem (b := (Proc.devRef .tc main_arg2)) _ _ (by not_written)).trans (W2_arg2 m ρ c)
theorem W3_arg3 : W3 m ρ c (Proc.devRef .tc main_arg3) = m ((c : Thread nD τ).loc main_arg3) :=
  (StableHlo.after_of_forall_not_mem (b := (Proc.devRef .tc main_arg3)) _ _ (by not_written)).trans (W2_arg3 m ρ c)
theorem W3_arg5 : W3 m ρ c (Proc.devRef .tc main_arg5) = m ((c : Thread nD τ).loc main_arg5) :=
  (StableHlo.after_of_forall_not_mem (b := (Proc.devRef .tc main_arg5)) _ _ (by not_written)).trans (W2_arg5 m ρ c)
theorem W3_arg8 : W3 m ρ c (Proc.devRef .tc main_arg8) = m ((c : Thread nD τ).loc main_arg8) :=
  (StableHlo.after_of_forall_not_mem (b := (Proc.devRef .tc main_arg8)) _ _ (by not_written)).trans (W2_arg8 m ρ c)
theorem W3_arg9 : W3 m ρ c (Proc.devRef .tc main_arg9) = m ((c : Thread nD τ).loc main_arg9) :=
  (StableHlo.after_of_forall_not_mem (b := (Proc.devRef .tc main_arg9)) _ _ (by not_written)).trans (W2_arg9 m ρ c)

/-! ## The second region -/

/-- The second hop's gated blend: the projected aggregate of the first blend, gated against `X₀`. -/
abbrev G2 : (⟨2, ![100000, 128]⟩ : Shape).Idx → EReal :=
  gate (project (aggK m c (G1 m c)) (wh0K m c)) (X0 m c) (w1K m c) (w2K m c) (m ((c : Thread nD τ).loc main_arg7)) (m ((c : Thread nD τ).loc main_arg10))

theorem V3_0 : V3 m ρ c (Pipeline.arrRef spec1 0) = aggK m c (G1 m c) := W3_v33 m ρ c
theorem V3_1 : V3 m ρ c (Pipeline.arrRef spec1 1) = wh0K m c := W3_v35 m ρ c
theorem V3_2 : V3 m ρ c (Pipeline.arrRef spec1 2) = X0 m c := W3_v19_0 m ρ c
theorem V3_3 : V3 m ρ c (Pipeline.arrRef spec1 3) = w1K m c := W3_v1 m ρ c
theorem V3_4 : V3 m ρ c (Pipeline.arrRef spec1 4) = w2K m c := W3_v3 m ρ c
theorem V3_5 : V3 m ρ c (Pipeline.arrRef spec1 5) = m ((c : Thread nD τ).loc main_arg7) := W3_arg7 m ρ c
theorem V3_6 : V3 m ρ c (Pipeline.arrRef spec1 6) = m ((c : Thread nD τ).loc main_arg10) := W3_arg10 m ρ c

theorem outG2_eq : outG2 (V3 m ρ) c = G2 m c := by
  unfold outG2
  rw [V3_0, V3_1, V3_2, V3_3, V3_4, V3_5, V3_6]

theorem W4_v36 : W4 m ρ c (Proc.devRef .tc main_v36) = G2 m c :=
  (W4_arr m ρ c 7).trans ((final1_7 (V3 m ρ) c).trans (outG2_eq m ρ c))

theorem W4_arg10 : W4 m ρ c (Proc.devRef .tc main_arg10) = m ((c : Thread nD τ).loc main_arg10) :=
  ((W4_arr m ρ c 6).trans (((dat1 (V3 m ρ) c).arrAt_in 6 rfl _).trans (A_eq1 (V3 m ρ) c 6))).trans (W3_arg10 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg5 : W4 m ρ c (Proc.devRef .tc main_arg5) = m ((c : Thread nD τ).loc main_arg5) :=
  (W4_of_ne m ρ c main_arg5 (by decide)).trans (W3_arg5 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)

/-! ## After the third stretch -/

theorem W5_v50 : W5 m ρ c (Proc.devRef .tc main_v50) = aggK m c (G2 m c) := by
  have h : W5 m ρ c (Proc.devRef .tc main_v50) = spmm gather_S100000x128_S1600000x1_S1600000x128_1_0_n_n_0_1_1128 scatter_S100000x128_S1600000x1_S1600000x128_1_0_0_1
      bcast_S_S100000x128 bcast_S_S1600000 bcast_S1600000_S1600000x1_0 bcast_S1600000x1_S1600000x128_0_1 100000#32
      (W4 m ρ c (Proc.devRef .tc main_arg1)) (W4 m ρ c (Proc.devRef .tc main_arg2)) (W4 m ρ c (Proc.devRef .tc main_arg3))
      (W4 m ρ c (Proc.devRef .tc main_v36)) := by
    show StableHlo.after hostOps2 (W4 m ρ c) (Proc.devRef .tc main_v50) = _
    after_results_simp
    rfl
  rw [h, W4_v36, W4_arg1, W4_arg2, W4_arg3]
theorem W5_v52 : W5 m ρ c (Proc.devRef .tc main_v52) = wh1K m c := by
  show StableHlo.after hostOps2 (W4 m ρ c) (Proc.devRef .tc main_v52) = _
  after_results_simp
  rw [W4_arg5]
  rfl
theorem W5_arg10 : W5 m ρ c (Proc.devRef .tc main_arg10) = m ((c : Thread nD τ).loc main_arg10) :=
  (StableHlo.after_of_forall_not_mem (b := (Proc.devRef .tc main_arg10)) _ _ (by not_written)).trans (W4_arg10 m ρ c)
theorem W5_arg8 : W5 m ρ c (Proc.devRef .tc main_arg8) = m ((c : Thread nD τ).loc main_arg8) :=
  (StableHlo.after_of_forall_not_mem (b := (Proc.devRef .tc main_arg8)) _ _ (by not_written)).trans (W4_arg8 m ρ c)
theorem W5_arg9 : W5 m ρ c (Proc.devRef .tc main_arg9) = m ((c : Thread nD τ).loc main_arg9) :=
  (StableHlo.after_of_forall_not_mem (b := (Proc.devRef .tc main_arg9)) _ _ (by not_written)).trans (W4_arg9 m ρ c)

/-! ## The last region, and the run -/

/-- The kernel's result as `net` of its argument arrays. -/
abbrev netK : (⟨2, ![100000, 64]⟩ : Shape).Idx → EReal :=
  net (aggK m c) (m ((c : Thread nD τ).loc main_arg0)) (m ((c : Thread nD τ).loc main_arg4)) (wh0K m c) (wh1K m c) (w1K m c) (w2K m c)
    (m ((c : Thread nD τ).loc main_arg7)) (m ((c : Thread nD τ).loc main_arg10)) (m ((c : Thread nD τ).loc main_arg8))
    (shapeCast S1x64 (m ((c : Thread nD τ).loc main_arg9)) shapeCasts_S64_S1x64)

theorem V5_0 : V5 m ρ c (Pipeline.arrRef spec2 0) = aggK m c (G2 m c) := W5_v50 m ρ c
theorem V5_1 : V5 m ρ c (Pipeline.arrRef spec2 1) = wh1K m c := W5_v52 m ρ c
theorem V5_2 : V5 m ρ c (Pipeline.arrRef spec2 2) = m ((c : Thread nD τ).loc main_arg10) := W5_arg10 m ρ c
theorem V5_3 : V5 m ρ c (Pipeline.arrRef spec2 3) = m ((c : Thread nD τ).loc main_arg8) := W5_arg8 m ρ c
theorem V5_4 : V5 m ρ c (Pipeline.arrRef spec2 4) = m ((c : Thread nD τ).loc main_arg9) := W5_arg9 m ρ c

theorem out2_eq : out2 (V5 m ρ) c = netK m c := by
  unfold out2
  rw [V5_0, V5_1, V5_2, V5_3, V5_4]
  rfl

theorem W6_v53 : W6 m ρ c (Proc.devRef .tc main_v53) = netK m c :=
  (W6_arr m ρ c 5).trans ((final2_5 (V5 m ρ) c).trans (out2_eq m ρ c))

/-- THE KERNEL'S RUN: every weakly fair execution terminates with the result array at `net` of the argument arrays, the
    arguments unchanged. -/
theorem run : θ_run defs (onTc (τ := τ) (main (F := Ideal))) ⟨m, fun _ => 0, ρ⟩ (fun r => ∀ c : Dev nD,
      r.2.mem ((c.tc : Thread nD τ).loc main_v53) = netK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_v53 (by decide)).trans (W6_v53 m ρ c),
     (h c main_arg0 (by decide)).trans (W6_main_arg0 m ρ c),
     (h c main_arg1 (by decide)).trans (W6_main_arg1 m ρ c),
     (h c main_arg2 (by decide)).trans (W6_main_arg2 m ρ c),
     (h c main_arg3 (by decide)).trans (W6_main_arg3 m ρ c),
     (h c main_arg4 (by decide)).trans (W6_main_arg4 m ρ c),
     (h c main_arg5 (by decide)).trans (W6_main_arg5 m ρ c),
     (h c main_arg6 (by decide)).trans (W6_main_arg6 m ρ c),
     (h c main_arg7 (by decide)).trans (W6_main_arg7 m ρ c),
     (h c main_arg8 (by decide)).trans (W6_main_arg8 m ρ c),
     (h c main_arg9 (by decide)).trans (W6_main_arg9 m ρ c),
     (h c main_arg10 (by decide)).trans (W6_main_arg10 m ρ c)⟩)
    (Cert.KernelIdeal.RunAll.run_ref m ρ)

end Cert.KernelIdeal.Stages

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.RefStages.lean ====
/-
  The idealized reference's run, read in stages.

  The reference's @main is one straight line of 137 host operations. Every weakly fair execution of it terminates with each
  buffer at the fold of the operations over the launch memory. The fold over the whole line is the fold over its last stretch
  started from the fold over the rest, so the line is read in six stretches, the buffer contents after the earlier ones carried
  as one opaque valuation:
    the first aggregation and projection (`X₀`); the first attention gate; the second aggregation and projection; the second gate;
    the third aggregation and projection; the rectifier, the class projection, the bias and the row-wise log-softmax.
  Each stretch's result is, by the host-spelling lemmas, the corresponding step of `net`; an argument array is written by no
  operation, and `X₀` by none after the first stretch, so they are the same in every valuation.
-/
import Idealize.ShloMosaic.PureOps.Ideal
import Idealize.ShloMosaic.Lib.StableHlo.Run
import proofs.«104476_j75213467287803_2_alg».proof.Proof.ReferenceRunP
import proofs.«104476_j75213467287803_2_alg».proof.Proof.LibAfterAppend
import proofs.«104476_j75213467287803_2_alg».proof.Proof.LibTRefCasts
import proofs.«104476_j75213467287803_2_alg».proof.Proof.LibAttnGateHost
import proofs.«104476_j75213467287803_2_alg».proof.Proof.LibHead
import proofs.«104476_j75213467287803_2_alg».proof.Proof.NetSpec

set_option maxRecDepth 16384

noncomputable section

namespace Cert.ReferenceIdeal.Stages

open Cert.ReferenceIdeal Cert.ReferenceIdeal.Gen Cert.ReferenceIdeal.ValueP Cert.Layers Cert.Gnn
open Idealize.ShloMosaic Idealize.ShloMosaic.TcCoe Idealize.ShloMosaic.ValueIdx Idealize.ShloMosaic.StableHlo Idealize.SL.Sem

/-- The program's operations at the extended reals. -/
abbrev opsI : List (HloOp τ sig (Elt Ideal)) := ops (F := Ideal)

/-- The six stretches. -/
abbrev stA : List (HloOp τ sig (Elt Ideal)) := opsI.take 17
abbrev stB : List (HloOp τ sig (Elt Ideal)) := (opsI.drop 17).take 28
abbrev stC : List (HloOp τ sig (Elt Ideal)) := (opsI.drop 45).take 19
abbrev stD : List (HloOp τ sig (Elt Ideal)) := (opsI.drop 64).take 28
abbrev stE : List (HloOp τ sig (Elt Ideal)) := (opsI.drop 92).take 19
abbrev stF : List (HloOp τ sig (Elt Ideal)) := opsI.drop 111

theorem ops_split : opsI = stA ++ (stB ++ (stC ++ (stD ++ (stE ++ stF)))) := by
  simp only [stA, stB, stC, stD, stE, stF, opsI, ops, List.take_succ_cons, List.take_zero, List.drop_succ_cons, List.drop_zero,
    List.cons_append, List.nil_append]

/-- The fold over the whole line is the folds over the stretches, in order. -/
theorem after_ops (V : Valuation τ sig (Elt Ideal)) :
    after opsI V = after stF (after stE (after stD (after stC (after stB (after stA V))))) := by
  rw [ops_split, Cert.Lib.after_append, Cert.Lib.after_append, Cert.Lib.after_append, Cert.Lib.after_append, Cert.Lib.after_append]

/-- A stretch's operations as a literal list, then each result by one pass over the list. -/
macro "stage_results" : tactic => `(tactic| (
  simp only [stA, stB, stC, stD, stE, stF, opsI, ops, List.take_succ_cons, List.take_zero, List.drop_succ_cons, List.drop_zero]
  after_results_simp))

variable (V : Valuation τ sig (Elt Ideal))

/-- The aggregation along the edge list a valuation holds in the reference's arguments 1, 2, 3. -/
abbrev aggR : ((⟨2, ![100000, 128]⟩ : Shape).Idx → EReal) → (⟨2, ![100000, 128]⟩ : Shape).Idx → EReal :=
  spmm gather_S100000x128_S1600000x1_S1600000x128_1_0_n_n_0_1_1128 scatter_S100000x128_S1600000x1_S1600000x128_1_0_0_1
    bcast_S_S100000x128 bcast_S_S1600000 bcast_S1600000_S1600000x1_0 bcast_S1600000x1_S1600000x128_0_1 100000#32
    (V (Proc.devRef .tc main_arg1)) (V (Proc.devRef .tc main_arg2)) (V (Proc.devRef .tc main_arg3))

/-- The hop weights' matrices, as the reference slices them. -/
abbrev wh0R : (⟨2, ![128, 128]⟩ : Shape).Idx → EReal :=
  shapeCast S128x128 (extractStridedSlice S1x128x128 ![0, 0, 0] (V (Proc.devRef .tc main_arg5)) slices_S2x128x128_S1x128x128_0_0_0) shapeCasts_S1x128x128_S128x128
abbrev wh1R : (⟨2, ![128, 128]⟩ : Shape).Idx → EReal :=
  shapeCast S128x128 (extractStridedSlice S1x128x128 ![1, 0, 0] (V (Proc.devRef .tc main_arg5)) slices_S2x128x128_S1x128x128_1_0_0) shapeCasts_S1x128x128_S128x128

theorem h256 : (256 : Nat) = 128 + 128 := rfl
theorem reduces_logits : S100000x64.Reduces [(1 : Fin 2)] S100000 := by decide
theorem casts_bias : S64.ShapeCasts S1x64 := by decide

/-! ## The stretches' results -/

theorem stA_v13 : after stA V (Proc.devRef .tc main_v13) = project (aggR V (V (Proc.devRef .tc main_arg0))) (V (Proc.devRef .tc main_arg4)) := by
  stage_results
  exact dotGeneral_eq_project _ rfl none _ _

theorem stB_v37 : after stB V (Proc.devRef .tc main_v37)
    = gate (V (Proc.devRef .tc main_v13)) (V (Proc.devRef .tc main_v13)) (colTop h256 (V (Proc.devRef .tc main_arg6))) (colBot h256 (V (Proc.devRef .tc main_arg6)))
        (V (Proc.devRef .tc main_arg7)) (V (Proc.devRef .tc main_arg10)) := by
  stage_results
  exact host_gate h256 _ _ _ _ _ dot_S100000x256_S256x1_S100000x1_1_0_0_1_n_n rfl none
    concatenates_S100000x128_S100000x128_S100000x256_d1 bcast_S1_S1x1_1 bcast_S1x1_S100000x1_0_1 bcast_S_S100000x1
    bcast_S100000x1_S100000x128_0_1 bcast_S_S100000x128 bcast_S1x1_S100000x128_0_1

theorem stC_v53 : after stC V (Proc.devRef .tc main_v53) = project (aggR V (V (Proc.devRef .tc main_v37))) (wh0R V) := by
  stage_results
  exact dotGeneral_eq_project _ rfl none _ _

theorem stD_v77 : after stD V (Proc.devRef .tc main_v77)
    = gate (V (Proc.devRef .tc main_v53)) (V (Proc.devRef .tc main_v13)) (colTop h256 (V (Proc.devRef .tc main_arg6))) (colBot h256 (V (Proc.devRef .tc main_arg6)))
        (V (Proc.devRef .tc main_arg7)) (V (Proc.devRef .tc main_arg10)) := by
  stage_results
  exact host_gate h256 _ _ _ _ _ dot_S100000x256_S256x1_S100000x1_1_0_0_1_n_n rfl none
    concatenates_S100000x128_S100000x128_S100000x256_d1 bcast_S1_S1x1_1 bcast_S1x1_S100000x1_0_1 bcast_S_S100000x1
    bcast_S100000x1_S100000x128_0_1 bcast_S_S100000x128 bcast_S1x1_S100000x128_0_1

theorem stE_v93 : after stE V (Proc.devRef .tc main_v93) = project (aggR V (V (Proc.devRef .tc main_v77))) (wh1R V) := by
  stage_results
  exact dotGeneral_eq_project _ rfl none _ _

theorem stF_v104 : after stF V (Proc.devRef .tc main_v104)
    = head (V (Proc.devRef .tc main_v93)) (V (Proc.devRef .tc main_arg10)) (V (Proc.devRef .tc main_arg8))
        (shapeCast S1x64 (V (Proc.devRef .tc main_arg9)) casts_bias) := by
  stage_results
  simp only [Cert.Lib.ofBuf_toBuf, Cert.Lib.toBuf_ofBuf]
  refine (Cert.Lib.host_logSoftmax _ reducesTo_S100000x64_S100000_d1 reduces_logits h_S_ bcast_S_S100000
    bcast_S100000_S100000x1_0 bcast_S100000x1_S100000x64_0_1).trans ?_
  unfold head
  refine congrArg Cert.Lib.logSoftmax ?_
  refine (addf_bias_eq_addRow _ _ bcast_S64_S1x64_1 bcast_S1x64_S100000x64_0_1 casts_bias).trans ?_
  refine congrArg (fun z => addRow z _) ?_
  refine (dotGeneral_eq_project _ rfl none _ _).trans ?_
  exact congrArg (fun z => project z _) (host_prelu _ _ bcast_S1_S1x1_1 bcast_S_S100000x128 bcast_S1x1_S100000x128_0_1)

/-! ## What each stretch leaves alone

An argument array is written by no operation, and `X₀` (`main_v13`) by none after the first stretch: at such a buffer the
fold over a stretch returns what the stretch started from. -/

theorem stA_arg6 : after stA V (Proc.devRef .tc main_arg6) = V (Proc.devRef .tc main_arg6) := by stage_results
theorem stA_arg7 : after stA V (Proc.devRef .tc main_arg7) = V (Proc.devRef .tc main_arg7) := by stage_results
theorem stA_arg10 : after stA V (Proc.devRef .tc main_arg10) = V (Proc.devRef .tc main_arg10) := by stage_results
theorem stA_arg1 : after stA V (Proc.devRef .tc main_arg1) = V (Proc.devRef .tc main_arg1) := by stage_results
theorem stA_arg2 : after stA V (Proc.devRef .tc main_arg2) = V (Proc.devRef .tc main_arg2) := by stage_results
theorem stA_arg3 : after stA V (Proc.devRef .tc main_arg3) = V (Proc.devRef .tc main_arg3) := by stage_results
theorem stA_arg5 : after stA V (Proc.devRef .tc main_arg5) = V (Proc.devRef .tc main_arg5) := by stage_results
theorem stA_arg8 : after stA V (Proc.devRef .tc main_arg8) = V (Proc.devRef .tc main_arg8) := by stage_results
theorem stA_arg9 : after stA V (Proc.devRef .tc main_arg9) = V (Proc.devRef .tc main_arg9) := by stage_results
theorem stB_v13 : after stB V (Proc.devRef .tc main_v13) = V (Proc.devRef .tc main_v13) := by stage_results
theorem stB_arg1 : after stB V (Proc.devRef .tc main_arg1) = V (Proc.devRef .tc main_arg1) := by stage_results
theorem stB_arg2 : after stB V (Proc.devRef .tc main_arg2) = V (Proc.devRef .tc main_arg2) := by stage_results
theorem stB_arg3 : after stB V (Proc.devRef .tc main_arg3) = V (Proc.devRef .tc main_arg3) := by stage_results
theorem stB_arg5 : after stB V (Proc.devRef .tc main_arg5) = V (Proc.devRef .tc main_arg5) := by stage_results
theorem stB_arg6 : after stB V (Proc.devRef .tc main_arg6) = V (Proc.devRef .tc main_arg6) := by stage_results
theorem stB_arg7 : after stB V (Proc.devRef .tc main_arg7) = V (Proc.devRef .tc main_arg7) := by stage_results
theorem stB_arg10 : after stB V (Proc.devRef .tc main_arg10) = V (Proc.devRef .tc main_arg10) := by stage_results
theorem stB_arg8 : after stB V (Proc.devRef .tc main_arg8) = V (Proc.devRef .tc main_arg8) := by stage_results
theorem stB_arg9 : after stB V (Proc.devRef .tc main_arg9) = V (Proc.devRef .tc main_arg9) := by stage_results
theorem stC_v13 : after stC V (Proc.devRef .tc main_v13) = V (Proc.devRef .tc main_v13) := by stage_results
theorem stC_arg6 : after stC V (Proc.devRef .tc main_arg6) = V (Proc.devRef .tc main_arg6) := by stage_results
theorem stC_arg7 : after stC V (Proc.devRef .tc main_arg7) = V (Proc.devRef .tc main_arg7) := by stage_results
theorem stC_arg10 : after stC V (Proc.devRef .tc main_arg10) = V (Proc.devRef .tc main_arg10) := by stage_results
theorem stC_arg1 : after stC V (Proc.devRef .tc main_arg1) = V (Proc.devRef .tc main_arg1) := by stage_results
theorem stC_arg2 : after stC V (Proc.devRef .tc main_arg2) = V (Proc.devRef .tc main_arg2) := by stage_results
theorem stC_arg3 : after stC V (Proc.devRef .tc main_arg3) = V (Proc.devRef .tc main_arg3) := by stage_results
theorem stC_arg5 : after stC V (Proc.devRef .tc main_arg5) = V (Proc.devRef .tc main_arg5) := by stage_results
theorem stC_arg8 : after stC V (Proc.devRef .tc main_arg8) = V (Proc.devRef .tc main_arg8) := by stage_results
theorem stC_arg9 : after stC V (Proc.devRef .tc main_arg9) = V (Proc.devRef .tc main_arg9) := by stage_results
theorem stD_arg1 : after stD V (Proc.devRef .tc main_arg1) = V (Proc.devRef .tc main_arg1) := by stage_results
theorem stD_arg2 : after stD V (Proc.devRef .tc main_arg2) = V (Proc.devRef .tc main_arg2) := by stage_results
theorem stD_arg3 : after stD V (Proc.devRef .tc main_arg3) = V (Proc.devRef .tc main_arg3) := by stage_results
theorem stD_arg5 : after stD V (Proc.devRef .tc main_arg5) = V (Proc.devRef .tc main_arg5) := by stage_results
theorem stD_arg10 : after stD V (Proc.devRef .tc main_arg10) = V (Proc.devRef .tc main_arg10) := by stage_results
theorem stD_arg8 : after stD V (Proc.devRef .tc main_arg8) = V (Proc.devRef .tc main_arg8) := by stage_results
theorem stD_arg9 : after stD V (Proc.devRef .tc main_arg9) = V (Proc.devRef .tc main_arg9) := by stage_results
theorem stE_arg10 : after stE V (Proc.devRef .tc main_arg10) = V (Proc.devRef .tc main_arg10) := by stage_results
theorem stE_arg8 : after stE V (Proc.devRef .tc main_arg8) = V (Proc.devRef .tc main_arg8) := by stage_results
theorem stE_arg9 : after stE V (Proc.devRef .tc main_arg9) = V (Proc.devRef .tc main_arg9) := by stage_results

/-! ## The result -/

/-- The reference's result as `net` of the arrays a valuation holds in the arguments. -/
abbrev netR : (⟨2, ![100000, 64]⟩ : Shape).Idx → EReal :=
  net (aggR V) (V (Proc.devRef .tc main_arg0)) (V (Proc.devRef .tc main_arg4)) (wh0R V) (wh1R V) (colTop h256 (V (Proc.devRef .tc main_arg6)))
    (colBot h256 (V (Proc.devRef .tc main_arg6))) (V (Proc.devRef .tc main_arg7)) (V (Proc.devRef .tc main_arg10)) (V (Proc.devRef .tc main_arg8))
    (shapeCast S1x64 (V (Proc.devRef .tc main_arg9)) casts_bias)

end Cert.ReferenceIdeal.Stages

end
-- ==== Proof.RefRun.lean ====
/-
  The idealized reference's run: its result array as `net` of the argument arrays.

  The six stretches' results and the buffers each leaves alone (the module this one imports) compose, last stretch first, to
  `net` of the launch contents; the run itself is the library's run of a straight line of host operations.
-/
import proofs.«104476_j75213467287803_2_alg».proof.Proof.RefStages

set_option maxRecDepth 16384

noncomputable section

namespace Cert.ReferenceIdeal.Stages

open Cert.ReferenceIdeal Cert.ReferenceIdeal.Gen Cert.ReferenceIdeal.ValueP Cert.Layers Cert.Gnn
open Idealize.ShloMosaic Idealize.ShloMosaic.TcCoe Idealize.ShloMosaic.ValueIdx Idealize.ShloMosaic.StableHlo Idealize.SL.Sem

/-- The fold over the whole line, read at the result buffer. -/
theorem result_eq (V : Valuation τ sig (Elt Ideal)) : after opsI V (Proc.devRef .tc main_v104) = netR V := by
  rw [after_ops, stF_v104, stE_v93, stE_arg10, stE_arg8, stE_arg9]
  unfold aggR wh1R
  rw [stD_v77, stD_arg1, stD_arg2, stD_arg3, stD_arg5, stD_arg10, stD_arg8, stD_arg9]
  rw [stC_v53, stC_v13, stC_arg6, stC_arg7, stC_arg10, stC_arg1, stC_arg2, stC_arg3, stC_arg5, stC_arg8, stC_arg9]
  unfold aggR wh0R
  rw [stB_v37, stB_v13, stB_arg1, stB_arg2, stB_arg3, stB_arg5, stB_arg6, stB_arg7, stB_arg10, stB_arg8, stB_arg9]
  rw [stA_v13, stA_arg6, stA_arg7, stA_arg10, stA_arg1, stA_arg2, stA_arg3, stA_arg5, stA_arg8, stA_arg9]
  rfl

/-! ## The run -/

set_option maxHeartbeats 40000000 in
/-- THE REFERENCE'S RUN: every weakly fair execution terminates with the result array at `net` of the argument arrays, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = netR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v104).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => opsI) main_eq (fun _ => ops_sub) m ρ)

end Cert.ReferenceIdeal.Stages

end
-- ==== Proof.Bridge.lean ====
/-
  The two runs end at one function of the argument arrays.

  The idealized kernel's result is `net` of its arguments with the attention vectors `w₁`, `w₂` obtained on the host as the two
  row-slices of the `[256, 1]` weight column, each reshaped to a vector; the idealized reference's is `net` of its arguments
  with `w₁`, `w₂` the column's first and last 128 entries (what its one contraction of `[x | x₀]` with the column splits into).
  A row-slice of a one-column matrix reshaped to a vector reads the column's entries in order, so the two agree; everything
  else in the two `net`s is the same operation applied to arguments that agree by hypothesis.
-/
import Idealize.ShloMosaic.Lib.ValueLayout
import proofs.«104476_j75213467287803_2_alg».proof.Proof.KernelStages
import proofs.«104476_j75213467287803_2_alg».proof.Proof.RefStages

set_option maxRecDepth 16384

noncomputable section

namespace Cert.Bridge

open Idealize.ShloMosaic Idealize.ShloMosaic.TcCoe Idealize.ShloMosaic.ValueIdx Idealize.ShloMosaic.StableHlo Idealize.SL.Sem
open Cert.Layers Cert.Gnn

/-- The first `K` rows of a `[K + K, 1]` column, reshaped to a vector, are its first `K` entries. -/
theorem sliceCol_top {K c : Nat} (hc : c = K + K) (aw : (⟨2, ![c, 1]⟩ : Shape).Idx → EReal)
    (hs : (⟨2, ![c, 1]⟩ : Shape).Slices ![0, 0] ⟨2, ![K, 1]⟩) (hcast : (⟨2, ![K, 1]⟩ : Shape).ShapeCasts ⟨1, ![K]⟩) :
    shapeCast ⟨1, ![K]⟩ (extractStridedSlice ⟨2, ![K, 1]⟩ ![0, 0] aw hs) hcast = colTop hc aw := by
  funext i
  obtain ⟨k, rfl⟩ : ∃ k : Fin K, i = ix1 k := ⟨i 0, eq_ix1 i⟩
  rw [shapeCast_apply _ hcast (ix1 k) (ix2 k (0 : Fin 1)) (by
    rw [Shape.rowMajor_val_two, Shape.rowMajor_val_one]
    show k.val * 1 + 0 = k.val
    omega)]
  exact slice2_axis0_apply 0 aw hs k (0 : Fin 1) ⟨k.val, by have := k.isLt; omega⟩ (Nat.zero_add _).symm

/-- Its last `K` rows, reshaped to a vector, are its last `K` entries. -/
theorem sliceCol_bot {K c : Nat} (hc : c = K + K) (aw : (⟨2, ![c, 1]⟩ : Shape).Idx → EReal)
    (hs : (⟨2, ![c, 1]⟩ : Shape).Slices ![K, 0] ⟨2, ![K, 1]⟩) (hcast : (⟨2, ![K, 1]⟩ : Shape).ShapeCasts ⟨1, ![K]⟩) :
    shapeCast ⟨1, ![K]⟩ (extractStridedSlice ⟨2, ![K, 1]⟩ ![K, 0] aw hs) hcast = colBot hc aw := by
  funext i
  obtain ⟨k, rfl⟩ : ∃ k : Fin K, i = ix1 k := ⟨i 0, eq_ix1 i⟩
  rw [shapeCast_apply _ hcast (ix1 k) (ix2 k (0 : Fin 1)) (by
    rw [Shape.rowMajor_val_two, Shape.rowMajor_val_one]
    show k.val * 1 + 0 = k.val
    omega)]
  exact slice2_axis0_apply K aw hs k (0 : Fin 1) ⟨K + k.val, by have := k.isLt; omega⟩ rfl

/-- `net` of equal operands. -/
theorem net_congr {N D C : Nat}
    {A A' : ((⟨2, ![N, D]⟩ : Shape).Idx → EReal) → (⟨2, ![N, D]⟩ : Shape).Idx → EReal}
    {x x' : (⟨2, ![N, D]⟩ : Shape).Idx → EReal} {w0 w0' wh0 wh0' wh1 wh1' : (⟨2, ![D, D]⟩ : Shape).Idx → EReal}
    {w1 w1' w2 w2' : (⟨1, ![D]⟩ : Shape).Idx → EReal} {b b' s s' : (⟨1, ![1]⟩ : Shape).Idx → EReal}
    {ow ow' : (⟨2, ![D, C]⟩ : Shape).Idx → EReal} {ob ob' : (⟨2, ![1, C]⟩ : Shape).Idx → EReal}
    (hA : A = A') (hx : x = x') (h0 : w0 = w0') (h1 : wh0 = wh0') (h2 : wh1 = wh1') (h3 : w1 = w1') (h4 : w2 = w2')
    (h5 : b = b') (h6 : s = s') (h7 : ow = ow') (h8 : ob = ob') :
    net A x w0 wh0 wh1 w1 w2 b s ow ob = net A' x' w0' wh0' wh1' w1' w2' b' s' ow' ob' := by
  subst hA hx h0 h1 h2 h3 h4 h5 h6 h7 h8
  rfl

/-- The aggregation along equal edge lists is one operator (the two programs' dimension records are the same record). -/
theorem agg_eq (er er' ec ec' : IVec ⟨1, ![1600000]⟩ 32) (ev ev' : (⟨1, ![1600000]⟩ : Shape).Idx → EReal)
    (h1 : er' = er) (h2 : ec' = ec) (h3 : ev' = ev) :
    spmm Cert.ReferenceIdeal.gather_S100000x128_S1600000x1_S1600000x128_1_0_n_n_0_1_1128
        Cert.ReferenceIdeal.scatter_S100000x128_S1600000x1_S1600000x128_1_0_0_1
        Cert.ReferenceIdeal.Gen.bcast_S_S100000x128 Cert.ReferenceIdeal.Gen.bcast_S_S1600000 Cert.ReferenceIdeal.Gen.bcast_S1600000_S1600000x1_0
        Cert.ReferenceIdeal.Gen.bcast_S1600000x1_S1600000x128_0_1 100000#32 er' ec' ev'
      = spmm Cert.KernelIdeal.gather_S100000x128_S1600000x1_S1600000x128_1_0_n_n_0_1_1128
        Cert.KernelIdeal.scatter_S100000x128_S1600000x1_S1600000x128_1_0_0_1
        Cert.KernelIdeal.Gen.bcast_S_S100000x128 Cert.KernelIdeal.Gen.bcast_S_S1600000 Cert.KernelIdeal.Gen.bcast_S1600000_S1600000x1_0
        Cert.KernelIdeal.Gen.bcast_S1600000x1_S1600000x128_0_1 100000#32 er ec ev := by
  subst h1 h2 h3
  rfl

/-- THE BRIDGE: from memories that agree on the arguments, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Stages.netR (launchContents m' c) = Cert.KernelIdeal.Stages.netK m c :=
  net_congr (agg_eq _ _ _ _ _ _ h1 h2 h3) h0 h4
    (congrArg (fun X => shapeCast Cert.KernelIdeal.S128x128 (extractStridedSlice Cert.KernelIdeal.S1x128x128 ![0, 0, 0] X
      Cert.KernelIdeal.Gen.slices_S2x128x128_S1x128x128_0_0_0) Cert.KernelIdeal.Gen.shapeCasts_S1x128x128_S128x128) h5)
    (congrArg (fun X => shapeCast Cert.KernelIdeal.S128x128 (extractStridedSlice Cert.KernelIdeal.S1x128x128 ![1, 0, 0] X
      Cert.KernelIdeal.Gen.slices_S2x128x128_S1x128x128_1_0_0) Cert.KernelIdeal.Gen.shapeCasts_S1x128x128_S128x128) h5)
    ((congrArg (colTop Cert.ReferenceIdeal.Stages.h256) h6).trans
      (sliceCol_top Cert.ReferenceIdeal.Stages.h256 _ Cert.KernelIdeal.Gen.slices_S256x1_S128x1_0_0 Cert.KernelIdeal.Gen.shapeCasts_S128x1_S128).symm)
    ((congrArg (colBot Cert.ReferenceIdeal.Stages.h256) h6).trans
      (sliceCol_bot Cert.ReferenceIdeal.Stages.h256 _ Cert.KernelIdeal.Gen.slices_S256x1_S128x1_128_0 Cert.KernelIdeal.Gen.shapeCasts_S128x1_S128).symm)
    h7 h10 h8
    (congrArg (fun X => shapeCast Cert.KernelIdeal.S1x64 X Cert.KernelIdeal.Gen.shapeCasts_S64_S1x64) h9)

end Cert.Bridge

end
-- ==== Proof.lean ====
/-
  Both idealized programs compute one three-hop graph network, `Cert.Gnn.net` of the argument arrays: a sparse aggregation
  followed by a projection, twice more an attention gate (a logistic coefficient blending the current features with the first
  hop's) with a leaky rectifier before the next aggregation and projection, and a classifier head (rectifier, class projection,
  bias, row-wise log-softmax).

  * The kernel runs the three dense steps as gridded regions over blocks of 5000 rows; every dense step acts row by row, so each
    region's result array is the step applied to the whole arrays it finds (`KernelRegion0/1/2`), and the contents at the six
    segment boundaries compose to `net` (`KernelStages`).
  * The reference is one line of host operations, read in six stretches (`RefStages`); its one contraction of `[x | x₀]` with the
    attention column splits at lane 128 into the kernel's two lane sums, its written-out `1 / (1 + exp (−z))` is the logistic,
    and its extra `max` with −∞ changes nothing.
  * The sparse aggregation is the same chain of host operations in both programs and is never opened.
  No law beyond regrouping a finite sum, `0 + s = s` and `max (−∞) y = y` is used, so the precondition is not needed for the
  values; the changes of float format are the identity on the extended reals.

  The three frames are the generated frame certificates (the kernels') and the reference's run with the result dropped; the
  idealization's ledger is empty.
-/
import proofs.«104476_j75213467287803_2_alg».proof.Defs
import proofs.«104476_j75213467287803_2_alg».proof.Proof.Gen.Kernel
import proofs.«104476_j75213467287803_2_alg».proof.Proof.Gen.KernelIdeal
import proofs.«104476_j75213467287803_2_alg».proof.Proof.Gen.ReferenceIdeal
import proofs.«104476_j75213467287803_2_alg».proof.Proof.Gen.Pre_finite_inputs
import proofs.«104476_j75213467287803_2_alg».proof.Proof.KernelFrameP
import proofs.«104476_j75213467287803_2_alg».proof.Proof.KernelIdealFrameP
import proofs.«104476_j75213467287803_2_alg».proof.Proof.KernelStages
import proofs.«104476_j75213467287803_2_alg».proof.Proof.RefStages
import proofs.«104476_j75213467287803_2_alg».proof.Proof.RefRun
import proofs.«104476_j75213467287803_2_alg».proof.Proof.Bridge

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Stages.run m ρ)

/-- The ideal pass rewrote no operation. -/
theorem preserves : Cert.preserves_Kernel_KernelIdeal := trivial

/-- From memories agreeing on the arguments both idealized programs end with the result array at `net` of the arguments. -/
theorem algebraic : Cert.algebraic_KernelIdeal_ReferenceIdeal := by
  intro m ρ m' ρ' _ hagree
  refine ⟨fun c => Cert.KernelIdeal.Stages.netK m c, Cert.KernelIdeal.Stages.run m ρ, ?_⟩
  refine (θ_run Cert.ReferenceIdeal.defs _ _).mono (fun _ h c => ⟨(h c).1.trans ?_, (h c).2⟩)
    (Cert.ReferenceIdeal.Stages.run m' ρ')
  obtain ⟨a0, a1, a2, a3, a4, a5, a6, a7, a8, a9, a10⟩ := hagree c
  exact Cert.Bridge.result_eq m m' c a0 a1 a2 a3 a4 a5 a6 a7 a8 a9 a10

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
